-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2048x8192 : Shape := ⟨2, ![2048, 8192]⟩
abbrev S8192x4096 : Shape := ⟨2, ![8192, 4096]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S8192x128 .f32) (main_arg1 : FVec F S2048x8192 .f32) (main_arg2 : FVec F S8192x4096 .f32) (main_arg3 : FVec F S128x128 .f32) (main_arg4 : FVec F S128x128 .f32) (main_arg5 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S2048x8192 .f32 := Host.absf main_arg1
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_c_1 : IVec S_ 1 := constantI S_ 1 1#1
  let main_v7 : IVec S_ 1 := (fun x v => Host.reduce IntOp.andi x v reducesTo_S2048x8192_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S8192x128 : Shape := ⟨2, ![8192, 128]⟩
abbrev S2048x8192 : Shape := ⟨2, ![2048, 8192]⟩
abbrev S8192x4096 : Shape := ⟨2, ![8192, 4096]⟩
abbrev S128x128 : Shape := ⟨2, ![128, 128]⟩
abbrev S4096x256 : Shape := ⟨2, ![4096, 256]⟩
abbrev S128x8192 : Shape := ⟨2, ![128, 8192]⟩
abbrev S4096x128 : Shape := ⟨2, ![4096, 128]⟩
abbrev S256x128 : Shape := ⟨2, ![256, 128]⟩

abbrev nBuf : Space → Nat
  | .hbm => 7
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S2048x8192, .f32⟩
  | .hbm, ⟨2, _⟩ => ⟨S8192x4096, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S8192x128, .f32⟩
  | .local _ .vmem, ⟨0, _⟩ => ⟨S8192x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S128x8192, .f32⟩
  | .local _ .vmem, ⟨9, _⟩ => ⟨S128x8192, .f32⟩
  | .local _ .vmem, ⟨10, _⟩ => ⟨S8192x128, .f32⟩
  | .local _ .vmem, ⟨11, _⟩ => ⟨S8192x128, .bf16⟩
  | .local _ .vmem, ⟨12, _⟩ => ⟨S8192x128, .bf16⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S8192x128_S8192x128 : S8192x128.ShapeCasts S8192x128
  packedbf16_S8192x128_S8192x128_0_0 : (Rect.unit (s := S8192x128) ![0, 0] S8192x128.size inb_S8192x128_S8192x128_0_0).PackedRows (EltTy.packing .bf16)
  inb_S4096x256_S4096x256_0_0 : ∀ a, (![0, 0] : Fin 2 → Nat) a + S4096x256.size a ≤ S4096x256.size a
  h_S4096x256 : 0 < S4096x256.numel
  inb_S8192x128_S4096x128_0_0 : ∀ a, (![0, 0] : Fin 2 → Nat) a + S4096x128.size a ≤ S8192x128.size a
  h_S4096x128 : 0 < S4096x128.numel
  inb_S8192x128_S4096x128_4096_0 : ∀ a, (![4096, 0] : Fin 2 → Nat) a + S4096x128.size a ≤ S8192x128.size a
  inb_S128x8192_S128x8192_0_0 : ∀ a, (![0, 0] : Fin 2 → Nat) a + S128x8192.size a ≤ S128x8192.size a
  h_S128x8192 : 0 < S128x8192.numel
  shapeCasts_S4096x128_S4096x128 : S4096x128.ShapeCasts S4096x128
  slices_S8192x128_o0_0_S4096x128 : S8192x128.Slices ![0, 0] S4096x128
  slices_S8192x128_o4096_0_S4096x128 : S8192x128.Slices ![4096, 0] S4096x128
  dot_S8192x128_S128x128_S8192x128_1_0_0_1_n_n_wf : DotDims.WF S8192x128 S128x128 S8192x128 [1] [0] [0] [1] [] []
  dot_S4096x256_S4096x128_S256x128_0_0_1_1_n_n_wf : DotDims.WF S4096x256 S4096x128 S256x128 [0] [0] [1] [1] [] []
  dot_S4096x256_S256x128_S4096x128_1_0_0_1_n_n_wf : DotDims.WF S4096x256 S256x128 S4096x128 [1] [0] [0] [1] [] []
  dot_S128x8192_S8192x128_S128x128_1_0_0_1_n_n_wf : DotDims.WF S128x8192 S8192x128 S128x128 [1] [0] [0] [1] [] []
  dot_S128x8192_S128x128_S8192x128_0_0_1_1_n_n_wf : DotDims.WF S128x8192 S128x128 S8192x128 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S8192x4096.size a
  hwx0_4 : ∀ i : grid0.Coords, EltTy.bits .f32 = 32 ∨ (Rect.block (s := S8192x4096) S4096x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S8192x4096.size a
  hwx0_5 : ∀ i : grid0.Coords, EltTy.bits .f32 = 32 ∨ (Rect.block (s := S8192x4096) S4096x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x8192.size a ≤ S2048x8192.size a
  hwx0_6 : ∀ i : grid0.Coords, EltTy.bits .f32 = 32 ∨ (Rect.block (s := S2048x8192) S128x8192.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8192x128.size a ≤ S8192x128.size a
  hwx0_7 : ∀ i : grid0.Coords, EltTy.bits .f32 = 32 ∨ (Rect.block (s := S8192x128) S8192x128.size (cc0_transform_7 i) (hinb0_7 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S4096x256_S4096x128_S256x128_0_0_1_1_n_n : DotDims S4096x256 S4096x128 S256x128 where
  lhsContracting := [0]
  rhsContracting := [0]
  lhsNonContracting := [1]
  rhsNonContracting := [1]
  lhsBatch := []
  rhsBatch := []
  wf := dot_S4096x256_S4096x128_S256x128_0_0_1_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S128x8192_S8192x128_S128x128_1_0_0_1_n_n : DotDims S128x8192 S8192x128 S128x128 where
  lhsContracting := [1]
  rhsContracting := [0]
  lhsNonContracting := [0]
  rhsNonContracting := [1]
  lhsBatch := []
  rhsBatch := []
  wf := dot_S128x8192_S8192x128_S128x128_1_0_0_1_n_n_wf
def dot_S128x8192_S128x128_S8192x128_0_0_1_1_n_n : DotDims S128x8192 S128x128 S8192x128 where
  lhsContracting := [0]
  rhsContracting := [0]
  lhsNonContracting := [1]
  rhsNonContracting := [1]
  lhsBatch := []
  rhsBatch := []
  wf := dot_S128x8192_S128x128_S8192x128_0_0_1_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S4096x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S4096x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S128x8192.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S8192x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x128 : Shape := ⟨2, ![8192, 128]⟩
abbrev S2048x8192 : Shape := ⟨2, ![2048, 8192]⟩
abbrev S8192x4096 : Shape := ⟨2, ![8192, 4096]⟩
abbrev S128x128 : Shape := ⟨2, ![128, 128]⟩
abbrev S4096x8192 : Shape := ⟨2, ![4096, 8192]⟩
abbrev S4096x128 : Shape := ⟨2, ![4096, 128]⟩
abbrev S8192x2048 : Shape := ⟨2, ![8192, 2048]⟩
abbrev S2048x128 : Shape := ⟨2, ![2048, 128]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2048x8192, .f32⟩
  | .hbm, ⟨2, _⟩ => ⟨S8192x4096, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S4096x8192, .f32⟩
  | .hbm, ⟨7, _⟩ => ⟨S8192x128, .f32⟩
  | .hbm, ⟨8, _⟩ => ⟨S4096x128, .f32⟩
  | .hbm, ⟨9, _⟩ => ⟨S8192x128, .f32⟩
  | .hbm, ⟨10, _⟩ => ⟨S8192x128, .f32⟩
  | .hbm, ⟨11, _⟩ => ⟨S8192x2048, .f32⟩
  | .hbm, ⟨12, _⟩ => ⟨S8192x128, .f32⟩
  | .hbm, ⟨13, _⟩ => ⟨S2048x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S8192x128, .f32⟩
  | .hbm, ⟨19, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  transposes_S8192x4096_S4096x8192_1_0 : S8192x4096.Transposes [1, 0] S4096x8192
  transposes_S2048x8192_S8192x2048_1_0 : S2048x8192.Transposes [1, 0] S8192x2048
  bcast_S_S8192x128 : S_.BroadcastsInDim S8192x128 (![] : Fin 0 → Fin S8192x128.rank)
  dot_S8192x128_S128x128_S8192x128_1_0_0_1_n_n_wf : DotDims.WF S8192x128 S128x128 S8192x128 [1] [0] [0] [1] [] []
  dot_S4096x8192_S8192x128_S4096x128_1_0_0_1_n_n_wf : DotDims.WF S4096x8192 S8192x128 S4096x128 [1] [0] [0] [1] [] []
  dot_S8192x4096_S4096x128_S8192x128_1_0_0_1_n_n_wf : DotDims.WF S8192x4096 S4096x128 S8192x128 [1] [0] [0] [1] [] []
  dot_S2048x8192_S8192x128_S2048x128_1_0_0_1_n_n_wf : DotDims.WF S2048x8192 S8192x128 S2048x128 [1] [0] [0] [1] [] []
  dot_S8192x2048_S2048x128_S8192x128_1_0_0_1_n_n_wf : DotDims.WF S8192x2048 S2048x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf
def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def dot_S2048x8192_S8192x128_S2048x128_1_0_0_1_n_n : DotDims S2048x8192 S8192x128 S2048x128 where
  lhsContracting := [1]
  rhsContracting := [0]
  lhsNonContracting := [0]
  rhsNonContracting := [1]
  lhsBatch := []
  rhsBatch := []
  wf := dot_S2048x8192_S8192x128_S2048x128_1_0_0_1_n_n_wf
def dot_S8192x2048_S2048x128_S8192x128_1_0_0_1_n_n : DotDims S8192x2048 S2048x128 S8192x128 where
  lhsContracting := [1]
  rhsContracting := [0]
  lhsNonContracting := [0]
  rhsNonContracting := [1]
  lhsBatch := []
  rhsBatch := []
  wf := dot_S8192x2048_S2048x128_S8192x128_1_0_0_1_n_n_wf

class Facts : Prop extends Facts₀ where

variable [Facts]
-- ==== Proof.RegionK.lean ====
/-
  The pipelined region as the body meets it: the arrays' contents when the region is entered, each input window's
  block at a grid point read off its array, the two conditions the body branches on (the first point; the last
  point) decided over the sixteen points, and the staging and scratch memrefs the body is called with.
-/
import proofs.«159350_g1760936591461_cont_8to1_843_12_alg».proof.Proof.Gen.Kernel.Launch
import proofs.«159350_g1760936591461_cont_8to1_843_12_alg».proof.Proof.Gen.Kernel.Skeleton
import proofs.«159350_g1760936591461_cont_8to1_843_12_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when the region is entered: as launched (the program is the region alone). -/
abbrev V (c : Dev nD) (b : Ref sig .tc) : Buf (Elt F) ((c : Thread nD τ).loc b) := m ((c : Thread nD τ).loc b)

/-- The program up to the region is nothing: the region is entered from the launch memory. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not (unfetched, the
    index has not moved), for any proof data whose array is the entry contents and whose body leaves the block in
    place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first point" as the body computes it from the grid coordinate. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- "This is the last point". -/
abbrev condLast (i : grid0.Coords) : Prop := (Scalar.cmpi .ne (Scalar.extui (Scalar.cmpi .eq (BitVec.ofNat 32 (i 0).val) 15#32)) 0#32) = 1#1
theorem hcondLast : ∀ t : Fin cfg0.N, condLast (grid0.coords t) ↔ t.val % 16 = 15 :=
  (by decide +kernel : ∀ t : Fin grid0.N, condLast (grid0.coords t) ↔ t.val % 16 = 15)

/-- No window is idle at any point. -/
theorem live : ∀ (w : Fin cfg0.W) (t : Fin cfg0.N), cfg0.idle w (grid0.coords t) = false := by decide +kernel

/-! ## The memrefs the body is called with -/

abbrev ms0 (t : Fin cfg0.N) : Memref sig .tc .vmem S8192x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4096x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x8192 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S8192x128 .f32 := win0_7.stage (cfg0.slots t 7)
abbrev hs7 (t : Fin cfg0.N) : (ms7 t).IsWhole := hstage0_7 ((cfg0.slots t 7).cast nbuf0_7)
/-- The two scratch operands: x·W₀ and x·W₂, written at the first point and read at every point. -/
abbrev sc0 : Memref sig .tc .vmem S8192x128 .bf16 := Memref.whole cc0_scratch0
abbrev sc1 : Memref sig .tc .vmem S8192x128 .bf16 := Memref.whole cc0_scratch1
/-- Views through which the output's and the scratches' contents are stated. -/
abbrev VO : View sig .tc .vmem S8192x128 .f32 := (Memref.whole cc0_stg7_0 : Memref sig .tc .vmem S8192x128 .f32).view
abbrev VS0 : View sig .tc .vmem S8192x128 .bf16 := sc0.view
abbrev VS1 : View sig .tc .vmem S8192x128 .bf16 := sc1.view

/-- The core's scoped buffers that are no staging buffer are the two scratches, each owned whole at some contents. -/
theorem scopedRest_eq (c : Dev nD) :
    (Pipeline.scopedRest spec0 c : sProp 𝕄)
      = iprop((∃ d, owns (c : Thread nD τ) sc0 fullShare d) ∗ (∃ d, owns (c : Thread nD τ) sc1 fullShare d)) := by
  rw [scopedRest0_eq]; simp only [sc0, sc1, owns_whole]; try rfl

end Cert.Kernel.Region

end
-- ==== Proof.RunFirstK.lean ====
/-
  The body at the first grid point. The output's staging buffer and the two scratches are found at anything: the body
  stores x·W₀ and x·W₂ whole into the scratches and x·W₁ whole into the output before it reads any of them, then adds
  the point's two shares onto the output's upper and lower halves. The run finds, as lists of pieces, what each of
  the three buffers ends with.
-/
import proofs.«159350_g1760936591461_cont_8to1_843_12_alg».proof.Proof.RegionK

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runFirst (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i)
    (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) :
    Σ' (L7 : List (View.Piece (Elt F) S8192x128 .f32)) (LS0 : List (View.Piece (Elt F) S8192x128 .bf16)), { LS1 : List (View.Piece (Elt F) S8192x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__scone_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__scone_kernel_eq_skeleton]; unfold cc0__scone_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    iexists _; iexact H10

end Cert.Kernel.Region

end
-- ==== Proof.RunMidK.lean ====
/-
  The body at a grid point that is neither the first nor the last. The output's staging buffer holds the running
  total the point before left and the scratches hold x·W₀ and x·W₂; the body reads them, adds the point's two shares
  onto the output's upper and lower halves and leaves the scratches as they were. The run finds, as a list of
  pieces, what the output's buffer ends with.
-/
import proofs.«159350_g1760936591461_cont_8to1_843_12_alg».proof.Proof.RunFirstK

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runMid (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : ¬condFirst i) (hc1 : ¬condLast i)
    (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (xo : Vec F S8192x128 .f32) (xs0 : Vec F S8192x128 .bf16) (xs1 : Vec F S8192x128 .bf16) :
    { L7 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs0 ∗ owns (c : Thread nD τ) arg10 fullShare xs1) -∗ K ⟨⟩))
          ⊢ wp frame (wpE (defs₀ (F := F)) Variants.none c none) E (cc0__scone_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__scone_kernel_eq_skeleton]; unfold cc0__scone_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    iexists _; isplitr; · ipureintro; exact harg10.read_unread _
    iexact H10

end Cert.Kernel.Region

end
-- ==== Proof.RunLastK.lean ====
/-
  The body at the last grid point: as at a middle point, and then the whole running total is clamped at zero and
  stored back. The run finds, as a list of pieces, what the output's buffer ends with.
-/
import proofs.«159350_g1760936591461_cont_8to1_843_12_alg».proof.Proof.RunMidK

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runLast (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : ¬condFirst i) (hc1 : condLast i)
    (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (xo : Vec F S8192x128 .f32) (xs0 : Vec F S8192x128 .bf16) (xs1 : Vec F S8192x128 .bf16) :
    { L7 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs0 ∗ owns (c : Thread nD τ) arg10 fullShare xs1) -∗ K ⟨⟩))
          ⊢ wp frame (wpE (defs₀ (F := F)) Variants.none c none) E (cc0__scone_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__scone_kernel_eq_skeleton]; unfold cc0__scone_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    iexists _; isplitr; · ipureintro; exact harg10.read_unread _
    iexact H10

end Cert.Kernel.Region

end
-- ==== Proof.LibSharedFrame.lean ====
/-
  A frame run for one pipelined region whose input windows may read ONE array through several windows.

  The library's frame runs take the windows' arrays pairwise distinct, and from that derive how the arrays'
  buffers are dealt to the windows at entry. Here that step is a hypothesis instead (`hsplit`): the caller says
  how the distinct buffers behind the arrays, each whole at its entry contents, make the proof data's arrays —
  an array read by several input windows is split among them, each window holding the share the proof data
  name for it. Everything else is the library's launch theorem for a kernel with no semaphore of its own,
  instantiated the way the library's own frame runs instantiate it: the ghost state is the pipeline's alone, the
  unscoped buffers that are no window's array pass by the region and are read back unchanged at the end, and
  the region's invariant is entered from, and gives back, the core's scoped buffers that are no staging buffer
  (the kernel's scratch), each at some contents.

  The conclusion is the library's `FramePost`: every window's array ends at what the proof data compute
  (`Dat.arrAt … N`), every other unscoped buffer at its entry contents.
-/
import Idealize.ShloMosaic.Lib.Pipeline.Frame

noncomputable section

namespace Cert.SharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run of a region whose windows may share arrays. `hsplit` deals the arrays' buffers to the windows
    at entry; `hin` / `hout` enter the invariant from the kernel's scratch at any contents and give it back. -/
theorem θ_run_frame_shared
    (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr
      · iempintro
      iexact H)
    (hin := fun c => (show _ ⊢ (scopedRest (cfgs p).spec c : sProp 𝕄) from by
      iintro ⟨-, H⟩
      iexact H).trans (hin c))
    (hout := fun c => (hout c).trans (by
      iintro H
      isplitr
      · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.SharedFrame

end
-- ==== Proof.FrameK.lean ====
/-
  The frame run of the region. What the output's staging buffer holds after each of the sixteen points (by recursion:
  the first point's run; then each later point's run over what the point before left), what the two scratches hold
  from the first point on, the proof data of the pipeline (each input window left at its block, the output at the
  running total, the invariant carrying the scratches), the body's obligation at every point, and the run itself.
  The 8192 × 4096 array is read through two windows (its upper and lower 4096 rows): the two windows hold it at the
  two halves of the full share.
-/
import proofs.«159350_g1760936591461_cont_8to1_843_12_alg».proof.Proof.RunLastK
import proofs.«159350_g1760936591461_cont_8to1_843_12_alg».proof.Proof.LibSharedFrame

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N16 : cfg0.N = 16 := N_0

/-! ## What the runs leave, read back -/

theorem coverFirst7 (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (y : S8192x128.Idx) :
    ∃ pc ∈ (runFirst c i arg1 harg1 arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (s := S8192x128) _ (![4096, 128] : Fin 2 → ℕ) (by sl_kernel_rfl) y
theorem coverFirstS0 (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (y : S8192x128.Idx) :
    ∃ pc ∈ (runFirst c i arg1 harg1 arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL _ S8192x128.size (by sl_kernel_rfl) y
theorem coverFirstS1 (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (y : S8192x128.Idx) :
    ∃ pc ∈ (runFirst c i arg1 harg1 arg2 harg2 arg3 harg3 arg4 harg4 arg5 harg5 arg6 harg6 arg7 harg7 arg8 harg8 arg9 harg9 arg10 harg10 hc0 hc1 x0 x1 x2 x3 x4 x5 x6).2.2.1, y ∈ pc.1.set :=
  View.cover_of_tiledL _ S8192x128.size (by sl_kernel_rfl) y
theorem coverMid7 (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : ¬condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (xo : Vec F S8192x128 .f32) (xs0 xs1 : Vec F S8192x128 .bf16) (y : S8192x128.Idx) :
    ∃ pc ∈ (runMid c i arg1 harg1 arg2 harg2 arg3 harg3 arg4 harg4 arg5 harg5 arg6 harg6 arg7 harg7 arg8 harg8 arg9 harg9 arg10 harg10 hc0 hc1 x0 x1 x2 x3 x4 x5 x6 xo xs0 xs1).1, y ∈ pc.1.set :=
  View.cover_of_tiledL (s := S8192x128) _ (![4096, 128] : Fin 2 → ℕ) (by sl_kernel_rfl) y
theorem coverLast7 (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : ¬condFirst i) (hc1 : condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (xo : Vec F S8192x128 .f32) (xs0 xs1 : Vec F S8192x128 .bf16) (y : S8192x128.Idx) :
    ∃ pc ∈ (runLast c i arg1 harg1 arg2 harg2 arg3 harg3 arg4 harg4 arg5 harg5 arg6 harg6 arg7 harg7 arg8 harg8 arg9 harg9 arg10 harg10 hc0 hc1 x0 x1 x2 x3 x4 x5 x6 xo xs0 xs1).1, y ∈ pc.1.set :=
  View.cover_of_tiledL (s := S8192x128) _ (![4096, 128] : Fin 2 → ℕ) (by sl_kernel_rfl) y

/-- What the first point leaves in the output's buffer and in the two scratches. -/
def outFirst (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) : Vec F S8192x128 .f32 :=
  VO.read (Elt F) (VO.writes (Elt F) VO.junk (runFirst c i arg1 harg1 arg2 harg2 arg3 harg3 arg4 harg4 arg5 harg5 arg6 harg6 arg7 harg7 arg8 harg8 arg9 harg9 arg10 harg10 hc0 hc1 x0 x1 x2 x3 x4 x5 x6).1)
def s0First (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) : Vec F S8192x128 .bf16 :=
  VS0.read (Elt F) (VS0.writes (Elt F) VS0.junk (runFirst c i arg1 harg1 arg2 harg2 arg3 harg3 arg4 harg4 arg5 harg5 arg6 harg6 arg7 harg7 arg8 harg8 arg9 harg9 arg10 harg10 hc0 hc1 x0 x1 x2 x3 x4 x5 x6).2.1)
def s1First (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) : Vec F S8192x128 .bf16 :=
  VS1.read (Elt F) (VS1.writes (Elt F) VS1.junk (runFirst c i arg1 harg1 arg2 harg2 arg3 harg3 arg4 harg4 arg5 harg5 arg6 harg6 arg7 harg7 arg8 harg8 arg9 harg9 arg10 harg10 hc0 hc1 x0 x1 x2 x3 x4 x5 x6).2.2.1)
/-- What a middle point and the last point leave in the output's buffer. -/
def outMid (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : ¬condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (xo : Vec F S8192x128 .f32) (xs0 xs1 : Vec F S8192x128 .bf16) : Vec F S8192x128 .f32 :=
  VO.read (Elt F) (VO.writes (Elt F) VO.junk (runMid c i arg1 harg1 arg2 harg2 arg3 harg3 arg4 harg4 arg5 harg5 arg6 harg6 arg7 harg7 arg8 harg8 arg9 harg9 arg10 harg10 hc0 hc1 x0 x1 x2 x3 x4 x5 x6 xo xs0 xs1).1)
def outLast (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : ¬condFirst i) (hc1 : condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (xo : Vec F S8192x128 .f32) (xs0 xs1 : Vec F S8192x128 .bf16) : Vec F S8192x128 .f32 :=
  VO.read (Elt F) (VO.writes (Elt F) VO.junk (runLast c i arg1 harg1 arg2 harg2 arg3 harg3 arg4 harg4 arg5 harg5 arg6 harg6 arg7 harg7 arg8 harg8 arg9 harg9 arg10 harg10 hc0 hc1 x0 x1 x2 x3 x4 x5 x6 xo xs0 xs1).1)

theorem pos0 : 0 < cfg0.N := by rw [N16]; decide
theorem notLast0 (hn : 0 < cfg0.N) : ¬condLast (grid0.coords ⟨0, hn⟩) :=
  fun h => (fun h => by (try dsimp only at h); omega) ((hcondLast ⟨0, hn⟩).mp h)

/-- The scratches from the first point on: x·W₀ and x·W₂ as the first point's run stores them. -/
def S0 (c : Dev nD) : Vec F S8192x128 .bf16 :=
  s0First c (grid0.coords ⟨0, pos0⟩) (ms0 ⟨0, pos0⟩) (hs0 ⟨0, pos0⟩) (ms1 ⟨0, pos0⟩) (hs1 ⟨0, pos0⟩) (ms2 ⟨0, pos0⟩) (hs2 ⟨0, pos0⟩) (ms3 ⟨0, pos0⟩) (hs3 ⟨0, pos0⟩) (ms4 ⟨0, pos0⟩) (hs4 ⟨0, pos0⟩) (ms5 ⟨0, pos0⟩) (hs5 ⟨0, pos0⟩) (ms6 ⟨0, pos0⟩) (hs6 ⟨0, pos0⟩) (ms7 ⟨0, pos0⟩) (hs7 ⟨0, pos0⟩) sc0 (Memref.isWhole_whole _) sc1 (Memref.isWhole_whole _) ((hcondFirst ⟨0, pos0⟩).mpr (Nat.zero_mod _)) (notLast0 pos0) (iblk m c 0 ⟨0, pos0⟩) (iblk m c 1 ⟨0, pos0⟩) (iblk m c 2 ⟨0, pos0⟩) (iblk m c 3 ⟨0, pos0⟩) (iblk m c 4 ⟨0, pos0⟩) (iblk m c 5 ⟨0, pos0⟩) (iblk m c 6 ⟨0, pos0⟩)
def S1 (c : Dev nD) : Vec F S8192x128 .bf16 :=
  s1First c (grid0.coords ⟨0, pos0⟩) (ms0 ⟨0, pos0⟩) (hs0 ⟨0, pos0⟩) (ms1 ⟨0, pos0⟩) (hs1 ⟨0, pos0⟩) (ms2 ⟨0, pos0⟩) (hs2 ⟨0, pos0⟩) (ms3 ⟨0, pos0⟩) (hs3 ⟨0, pos0⟩) (ms4 ⟨0, pos0⟩) (hs4 ⟨0, pos0⟩) (ms5 ⟨0, pos0⟩) (hs5 ⟨0, pos0⟩) (ms6 ⟨0, pos0⟩) (hs6 ⟨0, pos0⟩) (ms7 ⟨0, pos0⟩) (hs7 ⟨0, pos0⟩) sc0 (Memref.isWhole_whole _) sc1 (Memref.isWhole_whole _) ((hcondFirst ⟨0, pos0⟩).mpr (Nat.zero_mod _)) (notLast0 pos0) (iblk m c 0 ⟨0, pos0⟩) (iblk m c 1 ⟨0, pos0⟩) (iblk m c 2 ⟨0, pos0⟩) (iblk m c 3 ⟨0, pos0⟩) (iblk m c 4 ⟨0, pos0⟩) (iblk m c 5 ⟨0, pos0⟩) (iblk m c 6 ⟨0, pos0⟩)

/-- THE RUNNING TOTAL: what the output's staging buffer holds after the body at position n. -/
def outsAt (c : Dev nD) : (n : ℕ) → n < cfg0.N → Vec F S8192x128 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) sc0 (Memref.isWhole_whole _) sc1 (Memref.isWhole_whole _) ((hcondFirst ⟨0, hn⟩).mpr (Nat.zero_mod _)) (notLast0 hn) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 16 = 0 then
      False.elim (by have hN : n + 1 < 16 := lt_of_lt_of_eq hn N16; omega)
    else
      if h1 : (n + 1) % 16 = 15 then
        outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) sc0 (Memref.isWhole_whole _) sc1 (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)) (S0 m c) (S1 m c)
      else
        outMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) sc0 (Memref.isWhole_whole _) sc1 (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)) (S0 m c) (S1 m c)

theorem outsAt_mid (c : Dev nD) (n : ℕ) (hn : n + 1 < cfg0.N) (h0 : ¬(n + 1) % 16 = 0) (h1 : ¬(n + 1) % 16 = 15) :
    outsAt m c (n + 1) hn = outMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) sc0 (Memref.isWhole_whole _) sc1 (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt m c n (Nat.lt_of_succ_lt hn)) (S0 m c) (S1 m c) :=
  (dif_neg h0).trans ((dif_neg h1).trans rfl)
theorem outsAt_last (c : Dev nD) (n : ℕ) (hn : n + 1 < cfg0.N) (h0 : ¬(n + 1) % 16 = 0) (h1 : (n + 1) % 16 = 15) :
    outsAt m c (n + 1) hn = outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) sc0 (Memref.isWhole_whole _) sc1 (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt m c n (Nat.lt_of_succ_lt hn)) (S0 m c) (S1 m c) :=
  (dif_neg h0).trans ((dif_pos h1).trans rfl)

/-- The region's invariant before position n: before the first point the two scratches at anything; afterwards at
    what the first point stored. -/
def Phi (c : Dev nD) (n : ℕ) : sProp 𝕄 :=
  if n = 0 then Pipeline.scopedRest spec0 c
  else iprop(owns (c : Thread nD τ) sc0 fullShare (S0 m c) ∗ owns (c : Thread nD τ) sc1 fullShare (S1 m c))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t.val t.isLt
  Φ t := Phi m c t.val
  q w := match w with
    | ⟨4, _⟩ => fullShare.left
    | ⟨5, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outsAt m c t.val t.isLt := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d

/-- At a point that is not the first the output's staging buffer holds what the body left at the point before: it
    is written back only after the last point. -/
theorem before7 (c : Dev nD) (n : ℕ) (hn : n + 1 < cfg0.N) (d) :
    (dats m 0 c).before 7 ⟨n + 1, hn⟩ d = outsAt m c n (Nat.lt_of_succ_lt hn) := by
  have hN : n + 1 < 16 := lt_of_lt_of_eq hn N16
  rw [Dat.before_out_kept _ 7 rfl ⟨n + 1, hn⟩ (Nat.succ_ne_zero n) (Bool.eq_false_iff.mpr fun h => by have := (flush0_7 _).mp h; dsimp only at this; omega)
    (fun _ => rfl) (fun _ _ => rfl)]
  dsimp only [dats]
  rfl

theorem leaves0 (c : Dev nD) (t : Fin cfg0.N) : (dats m 0 c).leavesExact 0 t = owns (c : Thread nD τ) (ms0 t) fullShare (iblk m c 0 t) := by
  unfold Dat.leavesExact; rw [live 0 t, after0]
theorem leaves1 (c : Dev nD) (t : Fin cfg0.N) : (dats m 0 c).leavesExact 1 t = owns (c : Thread nD τ) (ms1 t) fullShare (iblk m c 1 t) := by
  unfold Dat.leavesExact; rw [live 1 t, after1]
theorem leaves2 (c : Dev nD) (t : Fin cfg0.N) : (dats m 0 c).leavesExact 2 t = owns (c : Thread nD τ) (ms2 t) fullShare (iblk m c 2 t) := by
  unfold Dat.leavesExact; rw [live 2 t, after2]
theorem leaves3 (c : Dev nD) (t : Fin cfg0.N) : (dats m 0 c).leavesExact 3 t = owns (c : Thread nD τ) (ms3 t) fullShare (iblk m c 3 t) := by
  unfold Dat.leavesExact; rw [live 3 t, after3]
theorem leaves4 (c : Dev nD) (t : Fin cfg0.N) : (dats m 0 c).leavesExact 4 t = owns (c : Thread nD τ) (ms4 t) fullShare (iblk m c 4 t) := by
  unfold Dat.leavesExact; rw [live 4 t, after4]
theorem leaves5 (c : Dev nD) (t : Fin cfg0.N) : (dats m 0 c).leavesExact 5 t = owns (c : Thread nD τ) (ms5 t) fullShare (iblk m c 5 t) := by
  unfold Dat.leavesExact; rw [live 5 t, after5]
theorem leaves6 (c : Dev nD) (t : Fin cfg0.N) : (dats m 0 c).leavesExact 6 t = owns (c : Thread nD τ) (ms6 t) fullShare (iblk m c 6 t) := by
  unfold Dat.leavesExact; rw [live 6 t, after6]
theorem leaves7 (c : Dev nD) (t : Fin cfg0.N) : (dats m 0 c).leavesExact 7 t = owns (c : Thread nD τ) (ms7 t) fullShare (outsAt m c t.val t.isLt) := by
  unfold Dat.leavesExact; rw [live 7 t, after7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

end Cert.Kernel.Region

end
-- ==== Proof.BodyK.lean ====
/-
  The body's obligation at every grid point: at the first point the run from buffers at anything; at a later point
  the run over what the point before left in the output's buffer and over the scratches as the first point stored
  them; in each case the run's pieces, read back, are the proof data's contents.
-/
import proofs.«159350_g1760936591461_cont_8to1_843_12_alg».proof.Proof.FrameK

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Phi_zero (c : Dev nD) : Phi m c 0 = Pipeline.scopedRest spec0 c := if_pos rfl
theorem Phi_succ (c : Dev nD) (n : ℕ) : Phi m c (n + 1) = iprop(owns (c : Thread nD τ) sc0 fullShare (S0 m c) ∗ owns (c : Thread nD τ) sc1 fullShare (S1 m c)) :=
  if_neg (Nat.succ_ne_zero n)

set_option maxHeartbeats 4000000 in
theorem sound_first (c : Dev nD) (hn : 0 < cfg0.N) :
    bodyPre m c ⟨0, hn⟩ ⊢ wp frame (wpE (defs₀ (F := F)) Variants.none c none) Set.univ (bodyAt0 ⟨0, hn⟩) (fun _ => bodyPost m c ⟨0, hn⟩) := by
  unfold bodyPre bodyPost bodyAt0
  simp only [before0, before1, before2, before3, before4, before5, before6]
  rw [show (dats m 0 c).owesAt () (Fin.succ ⟨0, hn⟩) = (dats m 0 c).owesAt () (Fin.castSucc ⟨0, hn⟩) from rfl]
  rw [leaves0, leaves1, leaves2, leaves3, leaves4, leaves5, leaves6, leaves7]
  rw [show (dats m 0 c).Φ (Fin.castSucc ⟨0, hn⟩) = Phi m c 0 from rfl, Phi_zero, scopedRest_eq,
    show (dats m 0 c).Φ (Fin.succ ⟨0, hn⟩) = Phi m c (0 + 1) from rfl, Phi_succ]
  rw [show outsAt m c (⟨0, hn⟩ : Fin cfg0.N).val (⟨0, hn⟩ : Fin cfg0.N).isLt = outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) sc0 (Memref.isWhole_whole _) sc1 (Memref.isWhole_whole _) ((hcondFirst ⟨0, hn⟩).mpr (Nat.zero_mod _)) (notLast0 hn) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) from rfl]
  unfold outFirst S0 S1 s0First s1First
  iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFirst c (grid0.coords ⟨0, hn⟩) _ _ _ _ _ _ _ _ _ _ _ _ _ _ _ _ _ _ _ _ ((hcondFirst ⟨0, hn⟩).mpr (Nat.zero_mod _)) (notLast0 hn) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, ⟨%es0, HS0⟩, ⟨%es1, HS1⟩⟩
  isplitl [HS0 HS1]
  · isplitl [HS0]
    · unfold owns; iexists _; isplitr
      swap; · iexact HS0
      ipureintro; exact View.read_writes_of_cover _ _ _ _ _ (coverFirstS0 c _ _ _ _ _ _ _ _ _ _ _ _ _ _ _ _ _ _ _ _ _ _ _ _ _ _ _ _ _ _)
    · unfold owns; iexists _; isplitr
      swap; · iexact HS1
      ipureintro; exact View.read_writes_of_cover _ _ _ _ _ (coverFirstS1 c _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (coverFirst7 c _ _ _ _ _ _ _ _ _ _ _ _ _ _ _ _ _ _ _ _ _ _ _ _ _ _ _ _ _ _)

set_option maxHeartbeats 4000000 in
theorem sound_mid (c : Dev nD) (n : ℕ) (hn : n + 1 < cfg0.N) (h0 : ¬(n + 1) % 16 = 0) (h1 : ¬(n + 1) % 16 = 15) :
    bodyPre m c ⟨n + 1, hn⟩ ⊢ wp frame (wpE (defs₀ (F := F)) Variants.none c none) Set.univ (bodyAt0 ⟨n + 1, hn⟩) (fun _ => bodyPost m c ⟨n + 1, hn⟩) := by
  unfold bodyPre bodyPost bodyAt0
  simp only [before0, before1, before2, before3, before4, before5, before6]
  simp only [before7]
  rw [show (dats m 0 c).owesAt () (Fin.succ ⟨n + 1, hn⟩) = (dats m 0 c).owesAt () (Fin.castSucc ⟨n + 1, hn⟩) from rfl]
  rw [leaves0, leaves1, leaves2, leaves3, leaves4, leaves5, leaves6, leaves7]
  rw [show (dats m 0 c).Φ (Fin.castSucc ⟨n + 1, hn⟩) = Phi m c (n + 1) from rfl,
    show (dats m 0 c).Φ (Fin.succ ⟨n + 1, hn⟩) = Phi m c (n + 1 + 1) from rfl, Phi_succ, Phi_succ]
  rw [show outsAt m c (⟨n + 1, hn⟩ : Fin cfg0.N).val (⟨n + 1, hn⟩ : Fin cfg0.N).isLt = outsAt m c (n + 1) hn from rfl, outsAt_mid m c n hn h0 h1]
  unfold outMid
  iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runMid c (grid0.coords ⟨n + 1, hn⟩) _ _ _ _ _ _ _ _ _ _ _ _ _ _ _ _ _ _ _ _ (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) _ _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, ⟨%e7, H7⟩, HS0, HS1⟩
  isplitl [HS0 HS1]
  · isplitl [HS0]; · iexact HS0
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (coverMid7 c _ _ _ _ _ _ _ _ _ _ _ _ _ _ _ _ _ _ _ _ _ _ _ _ _ _ _ _ _ _ _ _ _)

set_option maxHeartbeats 4000000 in
theorem sound_last (c : Dev nD) (n : ℕ) (hn : n + 1 < cfg0.N) (h0 : ¬(n + 1) % 16 = 0) (h1 : (n + 1) % 16 = 15) :
    bodyPre m c ⟨n + 1, hn⟩ ⊢ wp frame (wpE (defs₀ (F := F)) Variants.none c none) Set.univ (bodyAt0 ⟨n + 1, hn⟩) (fun _ => bodyPost m c ⟨n + 1, hn⟩) := by
  unfold bodyPre bodyPost bodyAt0
  simp only [before0, before1, before2, before3, before4, before5, before6]
  simp only [before7]
  rw [show (dats m 0 c).owesAt () (Fin.succ ⟨n + 1, hn⟩) = (dats m 0 c).owesAt () (Fin.castSucc ⟨n + 1, hn⟩) from rfl]
  rw [leaves0, leaves1, leaves2, leaves3, leaves4, leaves5, leaves6, leaves7]
  rw [show (dats m 0 c).Φ (Fin.castSucc ⟨n + 1, hn⟩) = Phi m c (n + 1) from rfl,
    show (dats m 0 c).Φ (Fin.succ ⟨n + 1, hn⟩) = Phi m c (n + 1 + 1) from rfl, Phi_succ, Phi_succ]
  rw [show outsAt m c (⟨n + 1, hn⟩ : Fin cfg0.N).val (⟨n + 1, hn⟩ : Fin cfg0.N).isLt = outsAt m c (n + 1) hn from rfl, outsAt_last m c n hn h0 h1]
  unfold outLast
  iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runLast c (grid0.coords ⟨n + 1, hn⟩) _ _ _ _ _ _ _ _ _ _ _ _ _ _ _ _ _ _ _ _ (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) _ _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, ⟨%e7, H7⟩, HS0, HS1⟩
  isplitl [HS0 HS1]
  · isplitl [HS0]; · iexact HS0
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (coverLast7 c _ _ _ _ _ _ _ _ _ _ _ _ _ _ _ _ _ _ _ _ _ _ _ _ _ _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  obtain ⟨n, hn⟩ := t
  cases n with
  | zero => exact sound_first m c hn
  | succ n =>
    have hN : n + 1 < 16 := lt_of_lt_of_eq hn N16
    by_cases h1 : (n + 1) % 16 = 15
    · exact sound_last m c n hn (by omega) h1
    · exact sound_mid m c n hn (by omega) h1

theorem body_obligation (c : Dev nD) : BodyObligation (dats (F := F) m 0 c) (defs₀ (F := F)) Variants.none () Set.univ := fun t => by
  rw [bigSep_W0, bigSep_W0]
  exact sound_body m c t

end Cert.Kernel.Region

end
-- ==== Proof.LaunchK.lean ====
/-
  The launch: the arrays dealt to the windows at entry (the array two windows read is split between them, half the
  full share each), the scratches entering and leaving the invariant, and the frame run of the whole program: every
  weakly fair execution terminates, faults nowhere, and ends with each window's array at what the proof data compute.
-/
import proofs.«159350_g1760936591461_cont_8to1_843_12_alg».proof.Proof.BodyK

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arr_pt0 (c : Dev nD) :
    ((cfg0.win 0).arr.view.loc (c : Thread nD τ) ↦[(cfg0.win 0).arr.view.set]{(dats m 0 c).share 0} (dats m 0 c).arrAt 0 0 : sProp 𝕄)
      = (((c : Thread nD τ).loc main_arg0) ↦{fullShare} V m c main_arg0) := by
  rw [(arr_whole0 0).set_eq_univ]; rfl
theorem arr_pt1 (c : Dev nD) :
    ((cfg0.win 1).arr.view.loc (c : Thread nD τ) ↦[(cfg0.win 1).arr.view.set]{(dats m 0 c).share 1} (dats m 0 c).arrAt 1 0 : sProp 𝕄)
      = (((c : Thread nD τ).loc main_arg3) ↦{fullShare} V m c main_arg3) := by
  rw [(arr_whole0 1).set_eq_univ]; rfl
theorem arr_pt2 (c : Dev nD) :
    ((cfg0.win 2).arr.view.loc (c : Thread nD τ) ↦[(cfg0.win 2).arr.view.set]{(dats m 0 c).share 2} (dats m 0 c).arrAt 2 0 : sProp 𝕄)
      = (((c : Thread nD τ).loc main_arg4) ↦{fullShare} V m c main_arg4) := by
  rw [(arr_whole0 2).set_eq_univ]; rfl
theorem arr_pt3 (c : Dev nD) :
    ((cfg0.win 3).arr.view.loc (c : Thread nD τ) ↦[(cfg0.win 3).arr.view.set]{(dats m 0 c).share 3} (dats m 0 c).arrAt 3 0 : sProp 𝕄)
      = (((c : Thread nD τ).loc main_arg5) ↦{fullShare} V m c main_arg5) := by
  rw [(arr_whole0 3).set_eq_univ]; rfl
theorem arr_pt4 (c : Dev nD) :
    ((cfg0.win 4).arr.view.loc (c : Thread nD τ) ↦[(cfg0.win 4).arr.view.set]{(dats m 0 c).share 4} (dats m 0 c).arrAt 4 0 : sProp 𝕄)
      = (((c : Thread nD τ).loc main_arg2) ↦{fullShare.left} V m c main_arg2) := by
  rw [(arr_whole0 4).set_eq_univ]; rfl
theorem arr_pt5 (c : Dev nD) :
    ((cfg0.win 5).arr.view.loc (c : Thread nD τ) ↦[(cfg0.win 5).arr.view.set]{(dats m 0 c).share 5} (dats m 0 c).arrAt 5 0 : sProp 𝕄)
      = (((c : Thread nD τ).loc main_arg2) ↦{fullShare.right} V m c main_arg2) := by
  rw [(arr_whole0 5).set_eq_univ]; rfl
theorem arr_pt6 (c : Dev nD) :
    ((cfg0.win 6).arr.view.loc (c : Thread nD τ) ↦[(cfg0.win 6).arr.view.set]{(dats m 0 c).share 6} (dats m 0 c).arrAt 6 0 : sProp 𝕄)
      = (((c : Thread nD τ).loc main_arg1) ↦{fullShare} V m c main_arg1) := by
  rw [(arr_whole0 6).set_eq_univ]; rfl
theorem arr_pt7 (c : Dev nD) :
    ((cfg0.win 7).arr.view.loc (c : Thread nD τ) ↦[(cfg0.win 7).arr.view.set]{(dats m 0 c).share 7} (dats m 0 c).arrAt 7 0 : sProp 𝕄)
      = (((c : Thread nD τ).loc main_v0) ↦{fullShare} V m c main_v0) := by
  rw [(arr_whole0 7).set_eq_univ]; rfl

/-- The arrays' buffers, each whole at its entry contents, make the windows' arrays: the 8192 × 4096 array, read by
    two windows, is held by each at one half of the full share. -/
theorem hsplit (c : Dev nD) : (Pipeline.arrBufs spec0 c (V m c) : sProp 𝕄) ⊢ (dats m 0 c).arrays ((dats m 0 c).arrAt · 0) := by
  unfold Pipeline.arrBufs Dat.arrays
  rw [bigSep_eq_bigSepL_of_eq [main_arg0, main_arg3, main_arg4, main_arg5, main_arg2, main_arg1, main_v0] (by decide) (by decide), bigSep_W0]
  rw [arr_pt0, arr_pt1, arr_pt2, arr_pt3, arr_pt4, arr_pt5, arr_pt6, arr_pt7]
  show (iprop((((c : Thread nD τ).loc main_arg0) ↦{fullShare} V m c main_arg0) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg2) ↦{fullShare} V m c main_arg2) ∗ (((c : Thread nD τ).loc main_arg1) ↦{fullShare} V m c main_arg1) ∗ (((c : Thread nD τ).loc main_v0) ↦{fullShare} V m c main_v0)) : sProp 𝕄) ⊢ _
  iintro ⟨H0, H3, H4, H5, H2, H1, Hv⟩
  ihave H2' := (pointsTo_share (PosShare.mem_left_op_right fullShare)).1 $$ H2
  icases H2' with ⟨H2a, H2b⟩
  isplitl [H0]; · iexact H0
  isplitl [H3]; · iexact H3
  isplitl [H4]; · iexact H4
  isplitl [H5]; · iexact H5
  isplitl [H2a]; · iexact H2a
  isplitl [H2b]; · iexact H2b
  isplitl [H1]; · iexact H1
  iexact Hv

theorem hin (c : Dev nD) : (Pipeline.scopedRest spec0 c : sProp 𝕄) ⊢ (dats m 0 c).Φ 0 := by
  rw [show (dats m 0 c).Φ 0 = Phi m c 0 from rfl, Phi_zero]

theorem hout (c : Dev nD) : (dats m 0 c).Φ (Fin.last cfg0.N) ⊢ (Pipeline.scopedRest spec0 c : sProp 𝕄) := by
  have hN : cfg0.N = 15 + 1 := N16
  rw [show (dats m 0 c).Φ (Fin.last cfg0.N) = Phi m c cfg0.N from rfl, hN, Phi_succ, scopedRest_eq]
  iintro ⟨HS0, HS1⟩
  isplitl [HS0]
  · iexists _; iexact HS0
  iexists _; iexact HS1

set_option backward.isDefEq.respectTransparency.types false in
/-- THE RUN. -/
theorem run_main : θ_run defs (onTc (τ := τ) (main (F := F))) (s₀ m ρ) (Pipeline.FramePost cfgs (dats m) 0 (V m)) :=
  Cert.SharedFrame.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- info: 'Cert.Kernel.Region.run_main' depends on axioms: [propext, Classical.choice, Quot.sound] -/
#guard_msgs in #print axioms run_main

/-- THE FRAME: every weakly fair execution terminates, nothing faults, and the six argument arrays end as they began
    (each is the array of an input window, and the pipeline writes no input window's array). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans (A_eq m c 0)),
     ((h c).1 6).trans (((dats m 0 c).arrAt_in 6 rfl _).trans (A_eq m c 6)),
     ((h c).1 4).trans (((dats m 0 c).arrAt_in 4 rfl _).trans (A_eq m c 4)),
     ((h c).1 1).trans (((dats m 0 c).arrAt_in 1 rfl _).trans (A_eq m c 1)),
     ((h c).1 2).trans (((dats m 0 c).arrAt_in 2 rfl _).trans (A_eq m c 2)),
     ((h c).1 3).trans (((dats m 0 c).arrAt_in 3 rfl _).trans (A_eq m c 3))⟩) (run_main m ρ)

end Cert.Kernel.Region

end
-- ==== Proof.RegionI.lean ====
/-
  The pipelined region as the body meets it: the arrays' contents when the region is entered, each input window's
  block at a grid point read off its array, the two conditions the body branches on (the first point; the last
  point) decided over the sixteen points, and the staging and scratch memrefs the body is called with.
-/
import proofs.«159350_g1760936591461_cont_8to1_843_12_alg».proof.Proof.Gen.KernelIdeal.Launch
import proofs.«159350_g1760936591461_cont_8to1_843_12_alg».proof.Proof.Gen.KernelIdeal.Skeleton
import proofs.«159350_g1760936591461_cont_8to1_843_12_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when the region is entered: as launched (the program is the region alone). -/
abbrev V (c : Dev nD) (b : Ref sig .tc) : Buf (Elt F) ((c : Thread nD τ).loc b) := m ((c : Thread nD τ).loc b)

/-- The program up to the region is nothing: the region is entered from the launch memory. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not (unfetched, the
    index has not moved), for any proof data whose array is the entry contents and whose body leaves the block in
    place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the first point" as the body computes it from the grid coordinate. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val % 16 = 0 :=
  (by decide +kernel : ∀ t : Fin grid0.N, condFirst (grid0.coords t) ↔ t.val % 16 = 0)

/-- "This is the last point". -/
abbrev condLast (i : grid0.Coords) : Prop := (Scalar.cmpi .ne (Scalar.extui (Scalar.cmpi .eq (BitVec.ofNat 32 (i 0).val) 15#32)) 0#32) = 1#1
theorem hcondLast : ∀ t : Fin cfg0.N, condLast (grid0.coords t) ↔ t.val % 16 = 15 :=
  (by decide +kernel : ∀ t : Fin grid0.N, condLast (grid0.coords t) ↔ t.val % 16 = 15)

/-- No window is idle at any point. -/
theorem live : ∀ (w : Fin cfg0.W) (t : Fin cfg0.N), cfg0.idle w (grid0.coords t) = false := by decide +kernel

/-! ## The memrefs the body is called with -/

abbrev ms0 (t : Fin cfg0.N) : Memref sig .tc .vmem S8192x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4096x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x8192 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S8192x128 .f32 := win0_7.stage (cfg0.slots t 7)
abbrev hs7 (t : Fin cfg0.N) : (ms7 t).IsWhole := hstage0_7 ((cfg0.slots t 7).cast nbuf0_7)
/-- The two scratch operands: x·W₀ and x·W₂, written at the first point and read at every point. -/
abbrev sc0 : Memref sig .tc .vmem S8192x128 .bf16 := Memref.whole cc0_scratch0
abbrev sc1 : Memref sig .tc .vmem S8192x128 .bf16 := Memref.whole cc0_scratch1
/-- Views through which the output's and the scratches' contents are stated. -/
abbrev VO : View sig .tc .vmem S8192x128 .f32 := (Memref.whole cc0_stg7_0 : Memref sig .tc .vmem S8192x128 .f32).view
abbrev VS0 : View sig .tc .vmem S8192x128 .bf16 := sc0.view
abbrev VS1 : View sig .tc .vmem S8192x128 .bf16 := sc1.view

/-- The core's scoped buffers that are no staging buffer are the two scratches, each owned whole at some contents. -/
theorem scopedRest_eq (c : Dev nD) :
    (Pipeline.scopedRest spec0 c : sProp 𝕄)
      = iprop((∃ d, owns (c : Thread nD τ) sc0 fullShare d) ∗ (∃ d, owns (c : Thread nD τ) sc1 fullShare d)) := by
  rw [scopedRest0_eq]; simp only [sc0, sc1, owns_whole]; try rfl

end Cert.KernelIdeal.Region

end
-- ==== Proof.RunFirstI.lean ====
/-
  The body at the first grid point. The output's staging buffer and the two scratches are found at anything: the body
  stores x·W₀ and x·W₂ whole into the scratches and x·W₁ whole into the output before it reads any of them, then adds
  the point's two shares onto the output's upper and lower halves. The run finds, as lists of pieces, what each of
  the three buffers ends with.
-/
import proofs.«159350_g1760936591461_cont_8to1_843_12_alg».proof.Proof.RegionI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runFirst (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i)
    (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) :
    Σ' (L7 : List (View.Piece (Elt F) S8192x128 .f32)) (LS0 : List (View.Piece (Elt F) S8192x128 .bf16)), { LS1 : List (View.Piece (Elt F) S8192x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__scone_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__scone_kernel_eq_skeleton]; unfold cc0__scone_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    iexists _; iexact H10

end Cert.KernelIdeal.Region

end
-- ==== Proof.RunMidI.lean ====
/-
  The body at a grid point that is neither the first nor the last. The output's staging buffer holds the running
  total the point before left and the scratches hold x·W₀ and x·W₂; the body reads them, adds the point's two shares
  onto the output's upper and lower halves and leaves the scratches as they were. The run finds, as a list of
  pieces, what the output's buffer ends with.
-/
import proofs.«159350_g1760936591461_cont_8to1_843_12_alg».proof.Proof.RunFirstI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runMid (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : ¬condFirst i) (hc1 : ¬condLast i)
    (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (xo : Vec F S8192x128 .f32) (xs0 : Vec F S8192x128 .bf16) (xs1 : Vec F S8192x128 .bf16) :
    { L7 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs0 ∗ owns (c : Thread nD τ) arg10 fullShare xs1) -∗ K ⟨⟩))
          ⊢ wp frame (wpE (defs₀ (F := F)) Variants.none c none) E (cc0__scone_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__scone_kernel_eq_skeleton]; unfold cc0__scone_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    iexists _; isplitr; · ipureintro; exact harg10.read_unread _
    iexact H10

end Cert.KernelIdeal.Region

end
-- ==== Proof.RunLastI.lean ====
/-
  The body at the last grid point: as at a middle point, and then the whole running total is clamped at zero and
  stored back. The run finds, as a list of pieces, what the output's buffer ends with.
-/
import proofs.«159350_g1760936591461_cont_8to1_843_12_alg».proof.Proof.RunMidI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runLast (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : ¬condFirst i) (hc1 : condLast i)
    (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (xo : Vec F S8192x128 .f32) (xs0 : Vec F S8192x128 .bf16) (xs1 : Vec F S8192x128 .bf16) :
    { L7 : List (View.Piece (Elt F) S8192x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs0 ∗ owns (c : Thread nD τ) arg10 fullShare xs1) -∗ K ⟨⟩))
          ⊢ wp frame (wpE (defs₀ (F := F)) Variants.none c none) E (cc0__scone_kernel i arg1 harg1 arg2 harg2 arg3 harg3 arg4 harg4 arg5 harg5 arg6 harg6 arg7 harg7 arg8 harg8 arg9 harg9 arg10 harg10) K } := by
  refine ⟨?_, fun E K => ?run⟩
  case run =>
    simp only [cc0__scone_kernel_eq_skeleton]; unfold cc0__scone_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; isplitr; · ipureintro; exact harg9.read_unread _
      iexact H9
    iexists _; isplitr; · ipureintro; exact harg10.read_unread _
    iexact H10

end Cert.KernelIdeal.Region

end
-- ==== Proof.FrameI.lean ====
/-
  The frame run of the region. What the output's staging buffer holds after each of the sixteen points (by recursion:
  the first point's run; then each later point's run over what the point before left), what the two scratches hold
  from the first point on, the proof data of the pipeline (each input window left at its block, the output at the
  running total, the invariant carrying the scratches), the body's obligation at every point, and the run itself.
  The 8192 × 4096 array is read through two windows (its upper and lower 4096 rows): the two windows hold it at the
  two halves of the full share.
-/
import proofs.«159350_g1760936591461_cont_8to1_843_12_alg».proof.Proof.RunLastI
import proofs.«159350_g1760936591461_cont_8to1_843_12_alg».proof.Proof.LibSharedFrame

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N16 : cfg0.N = 16 := N_0

/-! ## What the runs leave, read back -/

theorem coverFirst7 (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (y : S8192x128.Idx) :
    ∃ pc ∈ (runFirst c i arg1 harg1 arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (s := S8192x128) _ (![4096, 128] : Fin 2 → ℕ) (by sl_kernel_rfl) y
theorem coverFirstS0 (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (y : S8192x128.Idx) :
    ∃ pc ∈ (runFirst c i arg1 harg1 arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL _ S8192x128.size (by sl_kernel_rfl) y
theorem coverFirstS1 (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (y : S8192x128.Idx) :
    ∃ pc ∈ (runFirst c i arg1 harg1 arg2 harg2 arg3 harg3 arg4 harg4 arg5 harg5 arg6 harg6 arg7 harg7 arg8 harg8 arg9 harg9 arg10 harg10 hc0 hc1 x0 x1 x2 x3 x4 x5 x6).2.2.1, y ∈ pc.1.set :=
  View.cover_of_tiledL _ S8192x128.size (by sl_kernel_rfl) y
theorem coverMid7 (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : ¬condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (xo : Vec F S8192x128 .f32) (xs0 xs1 : Vec F S8192x128 .bf16) (y : S8192x128.Idx) :
    ∃ pc ∈ (runMid c i arg1 harg1 arg2 harg2 arg3 harg3 arg4 harg4 arg5 harg5 arg6 harg6 arg7 harg7 arg8 harg8 arg9 harg9 arg10 harg10 hc0 hc1 x0 x1 x2 x3 x4 x5 x6 xo xs0 xs1).1, y ∈ pc.1.set :=
  View.cover_of_tiledL (s := S8192x128) _ (![4096, 128] : Fin 2 → ℕ) (by sl_kernel_rfl) y
theorem coverLast7 (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : ¬condFirst i) (hc1 : condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (xo : Vec F S8192x128 .f32) (xs0 xs1 : Vec F S8192x128 .bf16) (y : S8192x128.Idx) :
    ∃ pc ∈ (runLast c i arg1 harg1 arg2 harg2 arg3 harg3 arg4 harg4 arg5 harg5 arg6 harg6 arg7 harg7 arg8 harg8 arg9 harg9 arg10 harg10 hc0 hc1 x0 x1 x2 x3 x4 x5 x6 xo xs0 xs1).1, y ∈ pc.1.set :=
  View.cover_of_tiledL (s := S8192x128) _ (![4096, 128] : Fin 2 → ℕ) (by sl_kernel_rfl) y

/-- What the first point leaves in the output's buffer and in the two scratches. -/
def outFirst (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) : Vec F S8192x128 .f32 :=
  VO.read (Elt F) (VO.writes (Elt F) VO.junk (runFirst c i arg1 harg1 arg2 harg2 arg3 harg3 arg4 harg4 arg5 harg5 arg6 harg6 arg7 harg7 arg8 harg8 arg9 harg9 arg10 harg10 hc0 hc1 x0 x1 x2 x3 x4 x5 x6).1)
def s0First (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) : Vec F S8192x128 .bf16 :=
  VS0.read (Elt F) (VS0.writes (Elt F) VS0.junk (runFirst c i arg1 harg1 arg2 harg2 arg3 harg3 arg4 harg4 arg5 harg5 arg6 harg6 arg7 harg7 arg8 harg8 arg9 harg9 arg10 harg10 hc0 hc1 x0 x1 x2 x3 x4 x5 x6).2.1)
def s1First (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) : Vec F S8192x128 .bf16 :=
  VS1.read (Elt F) (VS1.writes (Elt F) VS1.junk (runFirst c i arg1 harg1 arg2 harg2 arg3 harg3 arg4 harg4 arg5 harg5 arg6 harg6 arg7 harg7 arg8 harg8 arg9 harg9 arg10 harg10 hc0 hc1 x0 x1 x2 x3 x4 x5 x6).2.2.1)
/-- What a middle point and the last point leave in the output's buffer. -/
def outMid (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : ¬condFirst i) (hc1 : ¬condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (xo : Vec F S8192x128 .f32) (xs0 xs1 : Vec F S8192x128 .bf16) : Vec F S8192x128 .f32 :=
  VO.read (Elt F) (VO.writes (Elt F) VO.junk (runMid c i arg1 harg1 arg2 harg2 arg3 harg3 arg4 harg4 arg5 harg5 arg6 harg6 arg7 harg7 arg8 harg8 arg9 harg9 arg10 harg10 hc0 hc1 x0 x1 x2 x3 x4 x5 x6 xo xs0 xs1).1)
def outLast (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : ¬condFirst i) (hc1 : condLast i) (x0 : Vec F S8192x128 .f32) (x1 : Vec F S128x128 .f32) (x2 : Vec F S128x128 .f32) (x3 : Vec F S128x128 .f32) (x4 : Vec F S4096x256 .f32) (x5 : Vec F S4096x256 .f32) (x6 : Vec F S128x8192 .f32) (xo : Vec F S8192x128 .f32) (xs0 xs1 : Vec F S8192x128 .bf16) : Vec F S8192x128 .f32 :=
  VO.read (Elt F) (VO.writes (Elt F) VO.junk (runLast c i arg1 harg1 arg2 harg2 arg3 harg3 arg4 harg4 arg5 harg5 arg6 harg6 arg7 harg7 arg8 harg8 arg9 harg9 arg10 harg10 hc0 hc1 x0 x1 x2 x3 x4 x5 x6 xo xs0 xs1).1)

theorem pos0 : 0 < cfg0.N := by rw [N16]; decide
theorem notLast0 (hn : 0 < cfg0.N) : ¬condLast (grid0.coords ⟨0, hn⟩) :=
  fun h => (fun h => by (try dsimp only at h); omega) ((hcondLast ⟨0, hn⟩).mp h)

/-- The scratches from the first point on: x·W₀ and x·W₂ as the first point's run stores them. -/
def S0 (c : Dev nD) : Vec F S8192x128 .bf16 :=
  s0First c (grid0.coords ⟨0, pos0⟩) (ms0 ⟨0, pos0⟩) (hs0 ⟨0, pos0⟩) (ms1 ⟨0, pos0⟩) (hs1 ⟨0, pos0⟩) (ms2 ⟨0, pos0⟩) (hs2 ⟨0, pos0⟩) (ms3 ⟨0, pos0⟩) (hs3 ⟨0, pos0⟩) (ms4 ⟨0, pos0⟩) (hs4 ⟨0, pos0⟩) (ms5 ⟨0, pos0⟩) (hs5 ⟨0, pos0⟩) (ms6 ⟨0, pos0⟩) (hs6 ⟨0, pos0⟩) (ms7 ⟨0, pos0⟩) (hs7 ⟨0, pos0⟩) sc0 (Memref.isWhole_whole _) sc1 (Memref.isWhole_whole _) ((hcondFirst ⟨0, pos0⟩).mpr (Nat.zero_mod _)) (notLast0 pos0) (iblk m c 0 ⟨0, pos0⟩) (iblk m c 1 ⟨0, pos0⟩) (iblk m c 2 ⟨0, pos0⟩) (iblk m c 3 ⟨0, pos0⟩) (iblk m c 4 ⟨0, pos0⟩) (iblk m c 5 ⟨0, pos0⟩) (iblk m c 6 ⟨0, pos0⟩)
def S1 (c : Dev nD) : Vec F S8192x128 .bf16 :=
  s1First c (grid0.coords ⟨0, pos0⟩) (ms0 ⟨0, pos0⟩) (hs0 ⟨0, pos0⟩) (ms1 ⟨0, pos0⟩) (hs1 ⟨0, pos0⟩) (ms2 ⟨0, pos0⟩) (hs2 ⟨0, pos0⟩) (ms3 ⟨0, pos0⟩) (hs3 ⟨0, pos0⟩) (ms4 ⟨0, pos0⟩) (hs4 ⟨0, pos0⟩) (ms5 ⟨0, pos0⟩) (hs5 ⟨0, pos0⟩) (ms6 ⟨0, pos0⟩) (hs6 ⟨0, pos0⟩) (ms7 ⟨0, pos0⟩) (hs7 ⟨0, pos0⟩) sc0 (Memref.isWhole_whole _) sc1 (Memref.isWhole_whole _) ((hcondFirst ⟨0, pos0⟩).mpr (Nat.zero_mod _)) (notLast0 pos0) (iblk m c 0 ⟨0, pos0⟩) (iblk m c 1 ⟨0, pos0⟩) (iblk m c 2 ⟨0, pos0⟩) (iblk m c 3 ⟨0, pos0⟩) (iblk m c 4 ⟨0, pos0⟩) (iblk m c 5 ⟨0, pos0⟩) (iblk m c 6 ⟨0, pos0⟩)

/-- THE RUNNING TOTAL: what the output's staging buffer holds after the body at position n. -/
def outsAt (c : Dev nD) : (n : ℕ) → n < cfg0.N → Vec F S8192x128 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) sc0 (Memref.isWhole_whole _) sc1 (Memref.isWhole_whole _) ((hcondFirst ⟨0, hn⟩).mpr (Nat.zero_mod _)) (notLast0 hn) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 16 = 0 then
      False.elim (by have hN : n + 1 < 16 := lt_of_lt_of_eq hn N16; omega)
    else
      if h1 : (n + 1) % 16 = 15 then
        outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) sc0 (Memref.isWhole_whole _) sc1 (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)) (S0 m c) (S1 m c)
      else
        outMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) sc0 (Memref.isWhole_whole _) sc1 (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt c n (Nat.lt_of_succ_lt hn)) (S0 m c) (S1 m c)

theorem outsAt_mid (c : Dev nD) (n : ℕ) (hn : n + 1 < cfg0.N) (h0 : ¬(n + 1) % 16 = 0) (h1 : ¬(n + 1) % 16 = 15) :
    outsAt m c (n + 1) hn = outMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) sc0 (Memref.isWhole_whole _) sc1 (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt m c n (Nat.lt_of_succ_lt hn)) (S0 m c) (S1 m c) :=
  (dif_neg h0).trans ((dif_neg h1).trans rfl)
theorem outsAt_last (c : Dev nD) (n : ℕ) (hn : n + 1 < cfg0.N) (h0 : ¬(n + 1) % 16 = 0) (h1 : (n + 1) % 16 = 15) :
    outsAt m c (n + 1) hn = outLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) sc0 (Memref.isWhole_whole _) sc1 (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt m c n (Nat.lt_of_succ_lt hn)) (S0 m c) (S1 m c) :=
  (dif_neg h0).trans ((dif_pos h1).trans rfl)

/-- The region's invariant before position n: before the first point the two scratches at anything; afterwards at
    what the first point stored. -/
def Phi (c : Dev nD) (n : ℕ) : sProp 𝕄 :=
  if n = 0 then Pipeline.scopedRest spec0 c
  else iprop(owns (c : Thread nD τ) sc0 fullShare (S0 m c) ∗ owns (c : Thread nD τ) sc1 fullShare (S1 m c))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outsAt m c t.val t.isLt
  Φ t := Phi m c t.val
  q w := match w with
    | ⟨4, _⟩ => fullShare.left
    | ⟨5, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = outsAt m c t.val t.isLt := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d

/-- At a point that is not the first the output's staging buffer holds what the body left at the point before: it
    is written back only after the last point. -/
theorem before7 (c : Dev nD) (n : ℕ) (hn : n + 1 < cfg0.N) (d) :
    (dats m 0 c).before 7 ⟨n + 1, hn⟩ d = outsAt m c n (Nat.lt_of_succ_lt hn) := by
  have hN : n + 1 < 16 := lt_of_lt_of_eq hn N16
  rw [Dat.before_out_kept _ 7 rfl ⟨n + 1, hn⟩ (Nat.succ_ne_zero n) (Bool.eq_false_iff.mpr fun h => by have := (flush0_7 _).mp h; dsimp only at this; omega)
    (fun _ => rfl) (fun _ _ => rfl)]
  dsimp only [dats]
  rfl

theorem leaves0 (c : Dev nD) (t : Fin cfg0.N) : (dats m 0 c).leavesExact 0 t = owns (c : Thread nD τ) (ms0 t) fullShare (iblk m c 0 t) := by
  unfold Dat.leavesExact; rw [live 0 t, after0]
theorem leaves1 (c : Dev nD) (t : Fin cfg0.N) : (dats m 0 c).leavesExact 1 t = owns (c : Thread nD τ) (ms1 t) fullShare (iblk m c 1 t) := by
  unfold Dat.leavesExact; rw [live 1 t, after1]
theorem leaves2 (c : Dev nD) (t : Fin cfg0.N) : (dats m 0 c).leavesExact 2 t = owns (c : Thread nD τ) (ms2 t) fullShare (iblk m c 2 t) := by
  unfold Dat.leavesExact; rw [live 2 t, after2]
theorem leaves3 (c : Dev nD) (t : Fin cfg0.N) : (dats m 0 c).leavesExact 3 t = owns (c : Thread nD τ) (ms3 t) fullShare (iblk m c 3 t) := by
  unfold Dat.leavesExact; rw [live 3 t, after3]
theorem leaves4 (c : Dev nD) (t : Fin cfg0.N) : (dats m 0 c).leavesExact 4 t = owns (c : Thread nD τ) (ms4 t) fullShare (iblk m c 4 t) := by
  unfold Dat.leavesExact; rw [live 4 t, after4]
theorem leaves5 (c : Dev nD) (t : Fin cfg0.N) : (dats m 0 c).leavesExact 5 t = owns (c : Thread nD τ) (ms5 t) fullShare (iblk m c 5 t) := by
  unfold Dat.leavesExact; rw [live 5 t, after5]
theorem leaves6 (c : Dev nD) (t : Fin cfg0.N) : (dats m 0 c).leavesExact 6 t = owns (c : Thread nD τ) (ms6 t) fullShare (iblk m c 6 t) := by
  unfold Dat.leavesExact; rw [live 6 t, after6]
theorem leaves7 (c : Dev nD) (t : Fin cfg0.N) : (dats m 0 c).leavesExact 7 t = owns (c : Thread nD τ) (ms7 t) fullShare (outsAt m c t.val t.isLt) := by
  unfold Dat.leavesExact; rw [live 7 t, after7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

end Cert.KernelIdeal.Region

end
-- ==== Proof.BodyI.lean ====
/-
  The body's obligation at every grid point: at the first point the run from buffers at anything; at a later point
  the run over what the point before left in the output's buffer and over the scratches as the first point stored
  them; in each case the run's pieces, read back, are the proof data's contents.
-/
import proofs.«159350_g1760936591461_cont_8to1_843_12_alg».proof.Proof.FrameI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Phi_zero (c : Dev nD) : Phi m c 0 = Pipeline.scopedRest spec0 c := if_pos rfl
theorem Phi_succ (c : Dev nD) (n : ℕ) : Phi m c (n + 1) = iprop(owns (c : Thread nD τ) sc0 fullShare (S0 m c) ∗ owns (c : Thread nD τ) sc1 fullShare (S1 m c)) :=
  if_neg (Nat.succ_ne_zero n)

set_option maxHeartbeats 4000000 in
theorem sound_first (c : Dev nD) (hn : 0 < cfg0.N) :
    bodyPre m c ⟨0, hn⟩ ⊢ wp frame (wpE (defs₀ (F := F)) Variants.none c none) Set.univ (bodyAt0 ⟨0, hn⟩) (fun _ => bodyPost m c ⟨0, hn⟩) := by
  unfold bodyPre bodyPost bodyAt0
  simp only [before0, before1, before2, before3, before4, before5, before6]
  rw [show (dats m 0 c).owesAt () (Fin.succ ⟨0, hn⟩) = (dats m 0 c).owesAt () (Fin.castSucc ⟨0, hn⟩) from rfl]
  rw [leaves0, leaves1, leaves2, leaves3, leaves4, leaves5, leaves6, leaves7]
  rw [show (dats m 0 c).Φ (Fin.castSucc ⟨0, hn⟩) = Phi m c 0 from rfl, Phi_zero, scopedRest_eq,
    show (dats m 0 c).Φ (Fin.succ ⟨0, hn⟩) = Phi m c (0 + 1) from rfl, Phi_succ]
  rw [show outsAt m c (⟨0, hn⟩ : Fin cfg0.N).val (⟨0, hn⟩ : Fin cfg0.N).isLt = outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) sc0 (Memref.isWhole_whole _) sc1 (Memref.isWhole_whole _) ((hcondFirst ⟨0, hn⟩).mpr (Nat.zero_mod _)) (notLast0 hn) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) from rfl]
  unfold outFirst S0 S1 s0First s1First
  iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFirst c (grid0.coords ⟨0, hn⟩) _ _ _ _ _ _ _ _ _ _ _ _ _ _ _ _ _ _ _ _ ((hcondFirst ⟨0, hn⟩).mpr (Nat.zero_mod _)) (notLast0 hn) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, ⟨%e7, H7⟩, ⟨%es0, HS0⟩, ⟨%es1, HS1⟩⟩
  isplitl [HS0 HS1]
  · isplitl [HS0]
    · unfold owns; iexists _; isplitr
      swap; · iexact HS0
      ipureintro; exact View.read_writes_of_cover _ _ _ _ _ (coverFirstS0 c _ _ _ _ _ _ _ _ _ _ _ _ _ _ _ _ _ _ _ _ _ _ _ _ _ _ _ _ _ _)
    · unfold owns; iexists _; isplitr
      swap; · iexact HS1
      ipureintro; exact View.read_writes_of_cover _ _ _ _ _ (coverFirstS1 c _ _ _ _ _ _ _ _ _ _ _ _ _ _ _ _ _ _ _ _ _ _ _ _ _ _ _ _ _ _)
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (coverFirst7 c _ _ _ _ _ _ _ _ _ _ _ _ _ _ _ _ _ _ _ _ _ _ _ _ _ _ _ _ _ _)

set_option maxHeartbeats 4000000 in
theorem sound_mid (c : Dev nD) (n : ℕ) (hn : n + 1 < cfg0.N) (h0 : ¬(n + 1) % 16 = 0) (h1 : ¬(n + 1) % 16 = 15) :
    bodyPre m c ⟨n + 1, hn⟩ ⊢ wp frame (wpE (defs₀ (F := F)) Variants.none c none) Set.univ (bodyAt0 ⟨n + 1, hn⟩) (fun _ => bodyPost m c ⟨n + 1, hn⟩) := by
  unfold bodyPre bodyPost bodyAt0
  simp only [before0, before1, before2, before3, before4, before5, before6]
  simp only [before7]
  rw [show (dats m 0 c).owesAt () (Fin.succ ⟨n + 1, hn⟩) = (dats m 0 c).owesAt () (Fin.castSucc ⟨n + 1, hn⟩) from rfl]
  rw [leaves0, leaves1, leaves2, leaves3, leaves4, leaves5, leaves6, leaves7]
  rw [show (dats m 0 c).Φ (Fin.castSucc ⟨n + 1, hn⟩) = Phi m c (n + 1) from rfl,
    show (dats m 0 c).Φ (Fin.succ ⟨n + 1, hn⟩) = Phi m c (n + 1 + 1) from rfl, Phi_succ, Phi_succ]
  rw [show outsAt m c (⟨n + 1, hn⟩ : Fin cfg0.N).val (⟨n + 1, hn⟩ : Fin cfg0.N).isLt = outsAt m c (n + 1) hn from rfl, outsAt_mid m c n hn h0 h1]
  unfold outMid
  iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runMid c (grid0.coords ⟨n + 1, hn⟩) _ _ _ _ _ _ _ _ _ _ _ _ _ _ _ _ _ _ _ _ (fun h => h0 ((hcondFirst ⟨n + 1, hn⟩).mp h)) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) _ _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, ⟨%e7, H7⟩, HS0, HS1⟩
  isplitl [HS0 HS1]
  · isplitl [HS0]; · iexact HS0
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (coverMid7 c _ _ _ _ _ _ _ _ _ _ _ _ _ _ _ _ _ _ _ _ _ _ _ _ _ _ _ _ _ _ _ _ _)

set_option maxHeartbeats 4000000 in
theorem sound_last (c : Dev nD) (n : ℕ) (hn : n + 1 < cfg0.N) (h0 : ¬(n + 1) % 16 = 0) (h1 : (n + 1) % 16 = 15) :
    bodyPre m c ⟨n + 1, hn⟩ ⊢ wp frame (wpE (defs₀ (F := F)) Variants.none c none) Set.univ (bodyAt0 ⟨n + 1, hn⟩) (fun _ => bodyPost m c ⟨n + 1, hn⟩) := by
  unfold bodyPre bodyPost bodyAt0
  simp only [before0, before1, before2, before3, before4, before5, before6]
  simp only [before7]
  rw [show (dats m 0 c).owesAt () (Fin.succ ⟨n + 1, hn⟩) = (dats m 0 c).owesAt () (Fin.castSucc ⟨n + 1, hn⟩) from rfl]
  rw [leaves0, leaves1, leaves2, leaves3, leaves4, leaves5, leaves6, leaves7]
  rw [show (dats m 0 c).Φ (Fin.castSucc ⟨n + 1, hn⟩) = Phi m c (n + 1) from rfl,
    show (dats m 0 c).Φ (Fin.succ ⟨n + 1, hn⟩) = Phi m c (n + 1 + 1) from rfl, Phi_succ, Phi_succ]
  rw [show outsAt m c (⟨n + 1, hn⟩ : Fin cfg0.N).val (⟨n + 1, hn⟩ : Fin cfg0.N).isLt = outsAt m c (n + 1) hn from rfl, outsAt_last m c n hn h0 h1]
  unfold outLast
  iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runLast c (grid0.coords ⟨n + 1, hn⟩) _ _ _ _ _ _ _ _ _ _ _ _ _ _ _ _ _ _ _ _ (fun h => h0 ((hcondFirst ⟨n + 1, hn⟩).mp h)) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) _ _ _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, ⟨%e7, H7⟩, HS0, HS1⟩
  isplitl [HS0 HS1]
  · isplitl [HS0]; · iexact HS0
    iexact HS1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (coverLast7 c _ _ _ _ _ _ _ _ _ _ _ _ _ _ _ _ _ _ _ _ _ _ _ _ _ _ _ _ _ _ _ _ _)

/-- The body at any point. -/
theorem sound_body (c : Dev nD) (t : Fin cfg0.N) :
    bodyPre m c t ⊢ wp frame (wpE (defs₀ (F := F)) Variants.none c none) Set.univ (bodyAt0 t) (fun _ => bodyPost m c t) := by
  obtain ⟨n, hn⟩ := t
  cases n with
  | zero => exact sound_first m c hn
  | succ n =>
    have hN : n + 1 < 16 := lt_of_lt_of_eq hn N16
    by_cases h1 : (n + 1) % 16 = 15
    · exact sound_last m c n hn (by omega) h1
    · exact sound_mid m c n hn (by omega) h1

theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.LaunchI.lean ====
/-
  The launch: the arrays dealt to the windows at entry (the array two windows read is split between them, half the
  full share each), the scratches entering and leaving the invariant, and the frame run of the whole program: every
  weakly fair execution terminates, faults nowhere, and ends with each window's array at what the proof data compute.
-/
import proofs.«159350_g1760936591461_cont_8to1_843_12_alg».proof.Proof.BodyI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arr_pt0 (c : Dev nD) :
    ((cfg0.win 0).arr.view.loc (c : Thread nD τ) ↦[(cfg0.win 0).arr.view.set]{(dats m 0 c).share 0} (dats m 0 c).arrAt 0 0 : sProp 𝕄)
      = (((c : Thread nD τ).loc main_arg0) ↦{fullShare} V m c main_arg0) := by
  rw [(arr_whole0 0).set_eq_univ]; rfl
theorem arr_pt1 (c : Dev nD) :
    ((cfg0.win 1).arr.view.loc (c : Thread nD τ) ↦[(cfg0.win 1).arr.view.set]{(dats m 0 c).share 1} (dats m 0 c).arrAt 1 0 : sProp 𝕄)
      = (((c : Thread nD τ).loc main_arg3) ↦{fullShare} V m c main_arg3) := by
  rw [(arr_whole0 1).set_eq_univ]; rfl
theorem arr_pt2 (c : Dev nD) :
    ((cfg0.win 2).arr.view.loc (c : Thread nD τ) ↦[(cfg0.win 2).arr.view.set]{(dats m 0 c).share 2} (dats m 0 c).arrAt 2 0 : sProp 𝕄)
      = (((c : Thread nD τ).loc main_arg4) ↦{fullShare} V m c main_arg4) := by
  rw [(arr_whole0 2).set_eq_univ]; rfl
theorem arr_pt3 (c : Dev nD) :
    ((cfg0.win 3).arr.view.loc (c : Thread nD τ) ↦[(cfg0.win 3).arr.view.set]{(dats m 0 c).share 3} (dats m 0 c).arrAt 3 0 : sProp 𝕄)
      = (((c : Thread nD τ).loc main_arg5) ↦{fullShare} V m c main_arg5) := by
  rw [(arr_whole0 3).set_eq_univ]; rfl
theorem arr_pt4 (c : Dev nD) :
    ((cfg0.win 4).arr.view.loc (c : Thread nD τ) ↦[(cfg0.win 4).arr.view.set]{(dats m 0 c).share 4} (dats m 0 c).arrAt 4 0 : sProp 𝕄)
      = (((c : Thread nD τ).loc main_arg2) ↦{fullShare.left} V m c main_arg2) := by
  rw [(arr_whole0 4).set_eq_univ]; rfl
theorem arr_pt5 (c : Dev nD) :
    ((cfg0.win 5).arr.view.loc (c : Thread nD τ) ↦[(cfg0.win 5).arr.view.set]{(dats m 0 c).share 5} (dats m 0 c).arrAt 5 0 : sProp 𝕄)
      = (((c : Thread nD τ).loc main_arg2) ↦{fullShare.right} V m c main_arg2) := by
  rw [(arr_whole0 5).set_eq_univ]; rfl
theorem arr_pt6 (c : Dev nD) :
    ((cfg0.win 6).arr.view.loc (c : Thread nD τ) ↦[(cfg0.win 6).arr.view.set]{(dats m 0 c).share 6} (dats m 0 c).arrAt 6 0 : sProp 𝕄)
      = (((c : Thread nD τ).loc main_arg1) ↦{fullShare} V m c main_arg1) := by
  rw [(arr_whole0 6).set_eq_univ]; rfl
theorem arr_pt7 (c : Dev nD) :
    ((cfg0.win 7).arr.view.loc (c : Thread nD τ) ↦[(cfg0.win 7).arr.view.set]{(dats m 0 c).share 7} (dats m 0 c).arrAt 7 0 : sProp 𝕄)
      = (((c : Thread nD τ).loc main_v0) ↦{fullShare} V m c main_v0) := by
  rw [(arr_whole0 7).set_eq_univ]; rfl

/-- The arrays' buffers, each whole at its entry contents, make the windows' arrays: the 8192 × 4096 array, read by
    two windows, is held by each at one half of the full share. -/
theorem hsplit (c : Dev nD) : (Pipeline.arrBufs spec0 c (V m c) : sProp 𝕄) ⊢ (dats m 0 c).arrays ((dats m 0 c).arrAt · 0) := by
  unfold Pipeline.arrBufs Dat.arrays
  rw [bigSep_eq_bigSepL_of_eq [main_arg0, main_arg3, main_arg4, main_arg5, main_arg2, main_arg1, main_v0] (by decide) (by decide), bigSep_W0]
  rw [arr_pt0, arr_pt1, arr_pt2, arr_pt3, arr_pt4, arr_pt5, arr_pt6, arr_pt7]
  show (iprop((((c : Thread nD τ).loc main_arg0) ↦{fullShare} V m c main_arg0) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg2) ↦{fullShare} V m c main_arg2) ∗ (((c : Thread nD τ).loc main_arg1) ↦{fullShare} V m c main_arg1) ∗ (((c : Thread nD τ).loc main_v0) ↦{fullShare} V m c main_v0)) : sProp 𝕄) ⊢ _
  iintro ⟨H0, H3, H4, H5, H2, H1, Hv⟩
  ihave H2' := (pointsTo_share (PosShare.mem_left_op_right fullShare)).1 $$ H2
  icases H2' with ⟨H2a, H2b⟩
  isplitl [H0]; · iexact H0
  isplitl [H3]; · iexact H3
  isplitl [H4]; · iexact H4
  isplitl [H5]; · iexact H5
  isplitl [H2a]; · iexact H2a
  isplitl [H2b]; · iexact H2b
  isplitl [H1]; · iexact H1
  iexact Hv

theorem hin (c : Dev nD) : (Pipeline.scopedRest spec0 c : sProp 𝕄) ⊢ (dats m 0 c).Φ 0 := by
  rw [show (dats m 0 c).Φ 0 = Phi m c 0 from rfl, Phi_zero]

theorem hout (c : Dev nD) : (dats m 0 c).Φ (Fin.last cfg0.N) ⊢ (Pipeline.scopedRest spec0 c : sProp 𝕄) := by
  have hN : cfg0.N = 15 + 1 := N16
  rw [show (dats m 0 c).Φ (Fin.last cfg0.N) = Phi m c cfg0.N from rfl, hN, Phi_succ, scopedRest_eq]
  iintro ⟨HS0, HS1⟩
  isplitl [HS0]
  · iexists _; iexact HS0
  iexists _; iexact HS1

set_option backward.isDefEq.respectTransparency.types false in
/-- THE RUN. -/
theorem run_main : θ_run defs (onTc (τ := τ) (main (F := F))) (s₀ m ρ) (Pipeline.FramePost cfgs (dats m) 0 (V m)) :=
  Cert.SharedFrame.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-- info: 'Cert.KernelIdeal.Region.run_main' depends on axioms: [propext, Classical.choice, Quot.sound] -/
#guard_msgs in #print axioms run_main

/-- THE FRAME: every weakly fair execution terminates, nothing faults, and the six argument arrays end as they began
    (each is the array of an input window, and the pipeline writes no input window's array). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats m 0 c).arrAt_in 0 rfl _).trans (A_eq m c 0)),
     ((h c).1 6).trans (((dats m 0 c).arrAt_in 6 rfl _).trans (A_eq m c 6)),
     ((h c).1 4).trans (((dats m 0 c).arrAt_in 4 rfl _).trans (A_eq m c 4)),
     ((h c).1 1).trans (((dats m 0 c).arrAt_in 1 rfl _).trans (A_eq m c 1)),
     ((h c).1 2).trans (((dats m 0 c).arrAt_in 2 rfl _).trans (A_eq m c 2)),
     ((h c).1 3).trans (((dats m 0 c).arrAt_in 3 rfl _).trans (A_eq m c 3))⟩) (run_main m ρ)

end Cert.KernelIdeal.Region

end
-- ==== Proof.FinalI.lean ====
/-
  The result array after the run. The output window's one block is the whole array, at block index (0, 0), and it is
  written back at the last of the sixteen points only; so the array ends holding what the output's staging buffer
  holds after the body at the last point: that write-back reads the buffer through zero offsets, and its block
  contains every index of the array.
-/
import proofs.«159350_g1760936591461_cont_8to1_843_12_alg».proof.Proof.FrameI
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The running total after the last point, as contents of the result array (its one block is the array). -/
abbrev result (c : Dev nD) : Buf (Elt F) ((c : Thread nD τ).loc main_v0) := outsAt m c 15 (by rw [N16]; decide)

/-- The one write-back, at the last point, writes it: block (0, 0) of the array, read through zero offsets, is the
    array. -/
theorem flushed7_eq (c : Dev nD) (t : Fin cfg0.N) (hf : (cfg0.win 7).flush t = true) :
    (dats m 0 c).flushed 7 t = ((cfg0.win 7).blk t).view.read (Elt F) (result m c) := by
  have hN : cfg0.N = 16 := N16
  have h15 : t.val = 15 := by have := (flush0_7 t).mp hf; have := t.isLt; omega
  obtain rfl : t = t0_15 := Fin.ext h15
  show (cfg0.win 7).cut (grid0.coords t0_15) ((dats m 0 c).after 7 t0_15) = _
  rw [after7]
  have hz' : (fun a => win0_7.index t0_15 a * main_v0.ty.shape.size a) = fun _ => 0 :=
    funext fun a => by fin_cases a <;> decide +kernel
  exact (Memref.read_access_unit_zero (Elt F) main_v0 hz' (fun a => by rw [congrFun hz' a]; simp) (result m c)).symm

/-- So the result array ends holding the running total after the last point: the last point's block covers it. -/
theorem final7 (c : Dev nD) : (dats m 0 c).arrAt 7 cfg0.N = outsAt m c 15 (by rw [N16]; decide) :=
  (dats m 0 c).arrAt_eq_of_cover 7 (result m c) (flushed7_eq m c) fun i =>
    ⟨t0_15, (flush0_7 t0_15).mpr rfl, by
      show i ∈ ((View.whole main_v0).slice (win0_7.rect t0_15)).set
      rw [View.set_slice_whole, Rect.mem_set_unit]
      intro a
      have h0 : (i 0 : Nat) < 8192 := (i 0).isLt
      have h1 : (i 1 : Nat) < 128 := (i 1).isLt
      match a with
      | ⟨0, _⟩ => show win0_7.index t0_15 0 * win0_7.size 0 ≤ (i 0 : Nat) ∧ (i 0 : Nat) < win0_7.index t0_15 0 * win0_7.size 0 + win0_7.xsize (grid0.coords t0_15) 0
                  rw [show win0_7.index t0_15 0 * win0_7.size 0 = 0 from by decide +kernel, show win0_7.xsize (grid0.coords t0_15) 0 = 8192 from by decide +kernel]; omega
      | ⟨1, _⟩ => show win0_7.index t0_15 1 * win0_7.size 1 ≤ (i 1 : Nat) ∧ (i 1 : Nat) < win0_7.index t0_15 1 * win0_7.size 1 + win0_7.xsize (grid0.coords t0_15) 1
                  rw [show win0_7.index t0_15 1 * win0_7.size 1 = 0 from by decide +kernel, show win0_7.xsize (grid0.coords t0_15) 1 = 128 from by decide +kernel]; omega⟩

end Cert.KernelIdeal.Region

end
-- ==== Proof.ValueRunI.lean ====
/-
  The run, read: the result array ends at the running total after the last point, and the six argument arrays end
  as they began.
-/
import proofs.«159350_g1760936591461_cont_8to1_843_12_alg».proof.Proof.LaunchI
import proofs.«159350_g1760936591461_cont_8to1_843_12_alg».proof.Proof.FinalI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_value : θ_run defs (onTc (τ := τ) (main (F := F))) ⟨m, fun _ => 0, ρ⟩ (fun r => ∀ c : Dev nD,
      r.2.mem ((c.tc : Thread nD τ).loc main_v0) = outsAt m c 15 (by rw [N16]; decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 7).trans (final7 m c),
     ((h c).1 0).trans (((dats m 0 c).arrAt_in 0 rfl _).trans (A_eq m c 0)),
     ((h c).1 6).trans (((dats m 0 c).arrAt_in 6 rfl _).trans (A_eq m c 6)),
     ((h c).1 4).trans (((dats m 0 c).arrAt_in 4 rfl _).trans (A_eq m c 4)),
     ((h c).1 1).trans (((dats m 0 c).arrAt_in 1 rfl _).trans (A_eq m c 1)),
     ((h c).1 2).trans (((dats m 0 c).arrAt_in 2 rfl _).trans (A_eq m c 2)),
     ((h c).1 3).trans (((dats m 0 c).arrAt_in 3 rfl _).trans (A_eq m c 3))⟩) (run_main m ρ)

end Cert.KernelIdeal.Region

end
-- ==== Proof.PayDots.lean ====
import proofs.«159350_g1760936591461_cont_8to1_843_12_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Scone.Pay

open Cert.KernelIdeal Cert.KernelIdeal.Gen Idealize.ShloMosaic Idealize.ShloMosaic.ValueIdx

/-! # The kernel's five products, each read at an entry

Every product of the kernel adds into a zero accumulator and contracts one axis of each operand. At the extended reals
such a product is, entry by entry, the sum over the contracted axis of the operands' products; this module says so for
each of the five shape records, with the operands read at explicit coordinates. -/

/-- A product into the zero accumulator whose contraction runs over one axis of extent K is, at an entry, the sum over
    that axis of the operands' products, the operands read where the contraction's coordinate puts them. -/
theorem matmul_zero_single {sl sr so : Shape} {φ₁ φ₂ : FTy} (D : DotDims sl sr so) (K : Nat) (hr : D.contr.rank = 1)
    (hs : D.contr.size ⟨0, by omega⟩ = K) (l : FVec Ideal sl φ₁) (r : FVec Ideal sr φ₂) (j : so.Idx)
    (li : Fin K → sl.Idx) (ri : Fin K → sr.Idx)
    (hl : ∀ k, D.lhsIdx j ((contrEquiv1 D K hr hs).symm k) = li k)
    (hri : ∀ k, D.rhsIdx j ((contrEquiv1 D K hr hs).symm k) = ri k) :
    matmul (F := Ideal) D none l r (constant (F := Ideal) so .f32 0x00000000#32) j = ∑ k : Fin K, l (li k) * r (ri k) := by
  refine (Ideal.matmul_constant_zero_apply D none l r j).trans ?_
  rw [← Equiv.sum_comp (contrEquiv1 D K hr hs).symm]
  exact Finset.sum_congr rfl fun k _ => by rw [hl k, hri k]

/-! ### [8192,128] · [128,128] → [8192,128]: the left's columns against the right's rows -/

theorem dotA_lhs0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
theorem dotA_lhs1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem dotA_rhs0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem dotA_rhs1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- Entry (a, b) of the product is ∑ₖ l[a, k] · r[k, b], k over the 128 columns of l. -/
theorem dotA_apply {φ₁ φ₂ : FTy} (l : FVec Ideal S8192x128 φ₁) (r : FVec Ideal S128x128 φ₂) (a : Fin 8192) (b : Fin 128) :
    matmul (F := Ideal) dot_S8192x128_S128x128_S8192x128_1_0_0_1_n_n none l r (constant (F := Ideal) S8192x128 .f32 0x00000000#32) (ix2 a b)
      = ∑ k : Fin 128, l (ix2 a k) * r (ix2 k b) := by
  refine matmul_zero_single dot_S8192x128_S128x128_S8192x128_1_0_0_1_n_n 128 rfl rfl l r (ix2 a b) (fun k => ix2 a k) (fun k => ix2 k b) ?_ ?_
  · intro k
    have hk := contrEquiv1_symm_val dot_S8192x128_S128x128_S8192x128_1_0_0_1_n_n 128 rfl rfl k
    exact funext fun x => Fin.ext (by
      match x with
      | ⟨0, _⟩ => exact dotA_lhs0 _ _
      | ⟨1, _⟩ => exact (dotA_lhs1 _ _).trans hk)
  · intro k
    have hk := contrEquiv1_symm_val dot_S8192x128_S128x128_S8192x128_1_0_0_1_n_n 128 rfl rfl k
    exact funext fun x => Fin.ext (by
      match x with
      | ⟨0, _⟩ => exact (dotA_rhs0 _ _).trans hk
      | ⟨1, _⟩ => exact dotA_rhs1 _ _)

/-! ### [4096,256]ᵀ · [4096,128] → [256,128]: the left's rows against the right's rows -/

theorem dotB_lhs0 (i : S256x128.Idx) (q : dot_S4096x256_S4096x128_S256x128_0_0_1_1_n_n.contr.Idx) :
    (dot_S4096x256_S4096x128_S256x128_0_0_1_1_n_n.lhsIdx i q 0).val = (q ⟨0, by decide⟩).val :=
  dot_S4096x256_S4096x128_S256x128_0_0_1_1_n_n.lhsIdx_val_of_single rfl i q
theorem dotB_lhs1 (i : S256x128.Idx) (q : dot_S4096x256_S4096x128_S256x128_0_0_1_1_n_n.contr.Idx) :
    (dot_S4096x256_S4096x128_S256x128_0_0_1_1_n_n.lhsIdx i q 1).val = (i 0).val := by
  unfold DotDims.lhsIdx
  rw [dif_neg (show ¬(1 : Fin S4096x256.rank) ∈ dot_S4096x256_S4096x128_S256x128_0_0_1_1_n_n.lhsBatch by decide),
    dif_pos (show (1 : Fin S4096x256.rank) ∈ dot_S4096x256_S4096x128_S256x128_0_0_1_1_n_n.lhsNonContracting by decide)]
  rfl
theorem dotB_rhs0 (i : S256x128.Idx) (q : dot_S4096x256_S4096x128_S256x128_0_0_1_1_n_n.contr.Idx) :
    (dot_S4096x256_S4096x128_S256x128_0_0_1_1_n_n.rhsIdx i q 0).val = (q ⟨0, by decide⟩).val :=
  dot_S4096x256_S4096x128_S256x128_0_0_1_1_n_n.rhsIdx_val_of_single rfl i q
theorem dotB_rhs1 (i : S256x128.Idx) (q : dot_S4096x256_S4096x128_S256x128_0_0_1_1_n_n.contr.Idx) :
    (dot_S4096x256_S4096x128_S256x128_0_0_1_1_n_n.rhsIdx i q 1).val = (i 1).val := by
  unfold DotDims.rhsIdx
  rw [dif_neg (show ¬(1 : Fin S4096x128.rank) ∈ dot_S4096x256_S4096x128_S256x128_0_0_1_1_n_n.rhsBatch by decide),
    dif_pos (show (1 : Fin S4096x128.rank) ∈ dot_S4096x256_S4096x128_S256x128_0_0_1_1_n_n.rhsNonContracting by decide)]
  rfl

/-- Entry (a, b) of the product is ∑ₖ l[k, a] · r[k, b], k over the 4096 rows of l. -/
theorem dotB_apply {φ₁ φ₂ : FTy} (l : FVec Ideal S4096x256 φ₁) (r : FVec Ideal S4096x128 φ₂) (a : Fin 256) (b : Fin 128) :
    matmul (F := Ideal) dot_S4096x256_S4096x128_S256x128_0_0_1_1_n_n none l r (constant (F := Ideal) S256x128 .f32 0x00000000#32) (ix2 a b)
      = ∑ k : Fin 4096, l (ix2 k a) * r (ix2 k b) := by
  refine matmul_zero_single dot_S4096x256_S4096x128_S256x128_0_0_1_1_n_n 4096 rfl rfl l r (ix2 a b) (fun k => ix2 k a) (fun k => ix2 k b) ?_ ?_
  · intro k
    have hk := contrEquiv1_symm_val dot_S4096x256_S4096x128_S256x128_0_0_1_1_n_n 4096 rfl rfl k
    exact funext fun x => Fin.ext (by
      match x with
      | ⟨0, _⟩ => exact (dotB_lhs0 _ _).trans hk
      | ⟨1, _⟩ => exact dotB_lhs1 _ _)
  · intro k
    have hk := contrEquiv1_symm_val dot_S4096x256_S4096x128_S256x128_0_0_1_1_n_n 4096 rfl rfl k
    exact funext fun x => Fin.ext (by
      match x with
      | ⟨0, _⟩ => exact (dotB_rhs0 _ _).trans hk
      | ⟨1, _⟩ => exact dotB_rhs1 _ _)

/-! ### [4096,256] · [256,128] → [4096,128]: the left's columns against the right's rows -/

theorem dotC_lhs0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl
theorem dotC_lhs1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem dotC_rhs0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem dotC_rhs1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- Entry (a, b) of the product is ∑ₖ l[a, k] · r[k, b], k over the 256 columns of l. -/
theorem dotC_apply {φ₁ φ₂ : FTy} (l : FVec Ideal S4096x256 φ₁) (r : FVec Ideal S256x128 φ₂) (a : Fin 4096) (b : Fin 128) :
    matmul (F := Ideal) dot_S4096x256_S256x128_S4096x128_1_0_0_1_n_n none l r (constant (F := Ideal) S4096x128 .f32 0x00000000#32) (ix2 a b)
      = ∑ k : Fin 256, l (ix2 a k) * r (ix2 k b) := by
  refine matmul_zero_single dot_S4096x256_S256x128_S4096x128_1_0_0_1_n_n 256 rfl rfl l r (ix2 a b) (fun k => ix2 a k) (fun k => ix2 k b) ?_ ?_
  · intro k
    have hk := contrEquiv1_symm_val dot_S4096x256_S256x128_S4096x128_1_0_0_1_n_n 256 rfl rfl k
    exact funext fun x => Fin.ext (by
      match x with
      | ⟨0, _⟩ => exact dotC_lhs0 _ _
      | ⟨1, _⟩ => exact (dotC_lhs1 _ _).trans hk)
  · intro k
    have hk := contrEquiv1_symm_val dot_S4096x256_S256x128_S4096x128_1_0_0_1_n_n 256 rfl rfl k
    exact funext fun x => Fin.ext (by
      match x with
      | ⟨0, _⟩ => exact (dotC_rhs0 _ _).trans hk
      | ⟨1, _⟩ => exact dotC_rhs1 _ _)

/-! ### [128,8192] · [8192,128] → [128,128]: the left's columns against the right's rows -/

theorem dotD_lhs0 (i : S128x128.Idx) (q : dot_S128x8192_S8192x128_S128x128_1_0_0_1_n_n.contr.Idx) :
    (dot_S128x8192_S8192x128_S128x128_1_0_0_1_n_n.lhsIdx i q 0).val = (i 0).val := by
  unfold DotDims.lhsIdx
  rw [dif_neg (show ¬(0 : Fin S128x8192.rank) ∈ dot_S128x8192_S8192x128_S128x128_1_0_0_1_n_n.lhsBatch by decide),
    dif_pos (show (0 : Fin S128x8192.rank) ∈ dot_S128x8192_S8192x128_S128x128_1_0_0_1_n_n.lhsNonContracting by decide)]
  rfl
theorem dotD_lhs1 (i : S128x128.Idx) (q : dot_S128x8192_S8192x128_S128x128_1_0_0_1_n_n.contr.Idx) :
    (dot_S128x8192_S8192x128_S128x128_1_0_0_1_n_n.lhsIdx i q 1).val = (q ⟨0, by decide⟩).val :=
  dot_S128x8192_S8192x128_S128x128_1_0_0_1_n_n.lhsIdx_val_of_single rfl i q
theorem dotD_rhs0 (i : S128x128.Idx) (q : dot_S128x8192_S8192x128_S128x128_1_0_0_1_n_n.contr.Idx) :
    (dot_S128x8192_S8192x128_S128x128_1_0_0_1_n_n.rhsIdx i q 0).val = (q ⟨0, by decide⟩).val :=
  dot_S128x8192_S8192x128_S128x128_1_0_0_1_n_n.rhsIdx_val_of_single rfl i q
theorem dotD_rhs1 (i : S128x128.Idx) (q : dot_S128x8192_S8192x128_S128x128_1_0_0_1_n_n.contr.Idx) :
    (dot_S128x8192_S8192x128_S128x128_1_0_0_1_n_n.rhsIdx i q 1).val = (i 1).val := by
  unfold DotDims.rhsIdx
  rw [dif_neg (show ¬(1 : Fin S8192x128.rank) ∈ dot_S128x8192_S8192x128_S128x128_1_0_0_1_n_n.rhsBatch by decide),
    dif_pos (show (1 : Fin S8192x128.rank) ∈ dot_S128x8192_S8192x128_S128x128_1_0_0_1_n_n.rhsNonContracting by decide)]
  rfl

/-- Entry (a, b) of the product is ∑ₖ l[a, k] · r[k, b], k over the 8192 columns of l. -/
theorem dotD_apply {φ₁ φ₂ : FTy} (l : FVec Ideal S128x8192 φ₁) (r : FVec Ideal S8192x128 φ₂) (a : Fin 128) (b : Fin 128) :
    matmul (F := Ideal) dot_S128x8192_S8192x128_S128x128_1_0_0_1_n_n none l r (constant (F := Ideal) S128x128 .f32 0x00000000#32) (ix2 a b)
      = ∑ k : Fin 8192, l (ix2 a k) * r (ix2 k b) := by
  refine matmul_zero_single dot_S128x8192_S8192x128_S128x128_1_0_0_1_n_n 8192 rfl rfl l r (ix2 a b) (fun k => ix2 a k) (fun k => ix2 k b) ?_ ?_
  · intro k
    have hk := contrEquiv1_symm_val dot_S128x8192_S8192x128_S128x128_1_0_0_1_n_n 8192 rfl rfl k
    exact funext fun x => Fin.ext (by
      match x with
      | ⟨0, _⟩ => exact dotD_lhs0 _ _
      | ⟨1, _⟩ => exact (dotD_lhs1 _ _).trans hk)
  · intro k
    have hk := contrEquiv1_symm_val dot_S128x8192_S8192x128_S128x128_1_0_0_1_n_n 8192 rfl rfl k
    exact funext fun x => Fin.ext (by
      match x with
      | ⟨0, _⟩ => exact (dotD_rhs0 _ _).trans hk
      | ⟨1, _⟩ => exact dotD_rhs1 _ _)

/-! ### [128,8192]ᵀ · [128,128] → [8192,128]: the left's rows against the right's rows -/

theorem dotE_lhs0 (i : S8192x128.Idx) (q : dot_S128x8192_S128x128_S8192x128_0_0_1_1_n_n.contr.Idx) :
    (dot_S128x8192_S128x128_S8192x128_0_0_1_1_n_n.lhsIdx i q 0).val = (q ⟨0, by decide⟩).val :=
  dot_S128x8192_S128x128_S8192x128_0_0_1_1_n_n.lhsIdx_val_of_single rfl i q
theorem dotE_lhs1 (i : S8192x128.Idx) (q : dot_S128x8192_S128x128_S8192x128_0_0_1_1_n_n.contr.Idx) :
    (dot_S128x8192_S128x128_S8192x128_0_0_1_1_n_n.lhsIdx i q 1).val = (i 0).val := by
  unfold DotDims.lhsIdx
  rw [dif_neg (show ¬(1 : Fin S128x8192.rank) ∈ dot_S128x8192_S128x128_S8192x128_0_0_1_1_n_n.lhsBatch by decide),
    dif_pos (show (1 : Fin S128x8192.rank) ∈ dot_S128x8192_S128x128_S8192x128_0_0_1_1_n_n.lhsNonContracting by decide)]
  rfl
theorem dotE_rhs0 (i : S8192x128.Idx) (q : dot_S128x8192_S128x128_S8192x128_0_0_1_1_n_n.contr.Idx) :
    (dot_S128x8192_S128x128_S8192x128_0_0_1_1_n_n.rhsIdx i q 0).val = (q ⟨0, by decide⟩).val :=
  dot_S128x8192_S128x128_S8192x128_0_0_1_1_n_n.rhsIdx_val_of_single rfl i q
theorem dotE_rhs1 (i : S8192x128.Idx) (q : dot_S128x8192_S128x128_S8192x128_0_0_1_1_n_n.contr.Idx) :
    (dot_S128x8192_S128x128_S8192x128_0_0_1_1_n_n.rhsIdx i q 1).val = (i 1).val := by
  unfold DotDims.rhsIdx
  rw [dif_neg (show ¬(1 : Fin S128x128.rank) ∈ dot_S128x8192_S128x128_S8192x128_0_0_1_1_n_n.rhsBatch by decide),
    dif_pos (show (1 : Fin S128x128.rank) ∈ dot_S128x8192_S128x128_S8192x128_0_0_1_1_n_n.rhsNonContracting by decide)]
  rfl

/-- Entry (a, b) of the product is ∑ₖ l[k, a] · r[k, b], k over the 128 rows of l. -/
theorem dotE_apply {φ₁ φ₂ : FTy} (l : FVec Ideal S128x8192 φ₁) (r : FVec Ideal S128x128 φ₂) (a : Fin 8192) (b : Fin 128) :
    matmul (F := Ideal) dot_S128x8192_S128x128_S8192x128_0_0_1_1_n_n none l r (constant (F := Ideal) S8192x128 .f32 0x00000000#32) (ix2 a b)
      = ∑ k : Fin 128, l (ix2 k a) * r (ix2 k b) := by
  refine matmul_zero_single dot_S128x8192_S128x128_S8192x128_0_0_1_1_n_n 128 rfl rfl l r (ix2 a b) (fun k => ix2 k a) (fun k => ix2 k b) ?_ ?_
  · intro k
    have hk := contrEquiv1_symm_val dot_S128x8192_S128x128_S8192x128_0_0_1_1_n_n 128 rfl rfl k
    exact funext fun x => Fin.ext (by
      match x with
      | ⟨0, _⟩ => exact (dotE_lhs0 _ _).trans hk
      | ⟨1, _⟩ => exact dotE_lhs1 _ _)
  · intro k
    have hk := contrEquiv1_symm_val dot_S128x8192_S128x128_S8192x128_0_0_1_1_n_n 128 rfl rfl k
    exact funext fun x => Fin.ext (by
      match x with
      | ⟨0, _⟩ => exact (dotE_rhs0 _ _).trans hk
      | ⟨1, _⟩ => exact dotE_rhs1 _ _)

end Cert.Scone.Pay

end
-- ==== Proof.PayValue.lean ====
import proofs.«159350_g1760936591461_cont_8to1_843_12_alg».proof.Proof.PayDots

noncomputable section

namespace Cert.Scone.Pay

open Cert.KernelIdeal Cert.KernelIdeal.Gen Idealize.ShloMosaic Idealize.ShloMosaic.ValueIdx

/-! # The kernel's payloads, each read at an entry

At the extended reals a change of float format is the identity, a cast to the same shape is the identity, and each
product is a finite sum of products (the module this one imports). So every payload of the kernel's body, read at an
entry, is an explicit sum of products of the entries of the vectors it was computed from. -/

/-- x·W₁ at (r, f): the product of the two loaded blocks. -/
theorem pay6_apply (v36 : Vec Ideal S8192x128 .f32) (v52 : Vec Ideal S128x128 .f32) (r : Fin 8192) (f : Fin 128) :
    k0_pay6 (F := Ideal) v36 v52 (ix2 r f) = ∑ k : Fin 128, v36 (ix2 r k) * v52 (ix2 k f) := by
  unfold k0_pay6 k0_pay3
  exact dotA_apply _ _ r f

/-- x·W₀ at (r, f), kept in the narrower format: the same sum. -/
theorem pay4_apply (v36 : Vec Ideal S8192x128 .f32) (v38 : Vec Ideal S128x128 .f32) (r : Fin 8192) (f : Fin 128) :
    k0_pay4 (F := Ideal) v36 v38 (ix2 r f) = ∑ k : Fin 128, v36 (ix2 r k) * v38 (ix2 k f) := by
  unfold k0_pay4 k0_pay3
  refine (congrFun (shapeCast_self _ _) (ix2 r f)).trans ?_
  exact dotA_apply _ _ r f

/-- x·W₂ at (r, f), kept in the narrower format: the same sum. -/
theorem pay5_apply (v36 : Vec Ideal S8192x128 .f32) (v45 : Vec Ideal S128x128 .f32) (r : Fin 8192) (f : Fin 128) :
    k0_pay5 (F := Ideal) v36 v45 (ix2 r f) = ∑ k : Fin 128, v36 (ix2 r k) * v45 (ix2 k f) := by
  unfold k0_pay5 k0_pay3
  refine (congrFun (shapeCast_self _ _) (ix2 r f)).trans ?_
  exact dotA_apply _ _ r f

/-- The group's T at (jj, f): the upper rows' sum plus the lower rows' sum. -/
theorem pay9_apply (v3 v5 : Vec Ideal S4096x256 .f32) (v7 v9 : Vec Ideal S4096x128 .bf16) (jj : Fin 256) (f : Fin 128) :
    k0_pay9 (F := Ideal) v3 v5 v7 v9 (ix2 jj f)
      = (∑ e : Fin 4096, v3 (ix2 e jj) * v7 (ix2 e f)) + ∑ e : Fin 4096, v5 (ix2 e jj) * v9 (ix2 e f) := by
  unfold k0_pay9 k0_pay7 k0_pay8
  exact congrArg₂ (· + ·) (dotB_apply (φ₁ := .bf16) (φ₂ := .bf16) _ v7 jj f) (dotB_apply (φ₁ := .bf16) (φ₂ := .bf16) _ v9 jj f)

/-- The group's node share at (r, f): over the group's 128 rows ii, B₁[ii, r] times N[ii, f]. -/
theorem pay10_apply (v15 : Vec Ideal S128x8192 .f32) (v17 : Vec Ideal S8192x128 .bf16) (r : Fin 8192) (f : Fin 128) :
    k0_pay10 (F := Ideal) v15 v17 (ix2 r f)
      = ∑ ii : Fin 128, v15 (ix2 ii r) * (∑ e : Fin 8192, v15 (ix2 ii e) * v17 (ix2 e f)) := by
  unfold k0_pay10
  refine (dotE_apply _ _ r f).trans ?_
  refine Finset.sum_congr rfl fun ii _ => ?_
  exact congrArg (v15 (ix2 ii r) * ·) (dotD_apply (φ₁ := .bf16) (φ₂ := .bf16) _ v17 ii f)

/-- The upper half's new value at (p, f): the old value, plus the group's triangle share and node share there. -/
theorem pay11_apply (v3 v5 : Vec Ideal S4096x256 .f32) (v7 v9 : Vec Ideal S4096x128 .bf16)
    (v15 : Vec Ideal S128x8192 .f32) (v17 : Vec Ideal S8192x128 .bf16) (v21 : Vec Ideal S4096x128 .f32)
    (p : Fin 4096) (f : Fin 128) :
    k0_pay11 (F := Ideal) v3 v5 v7 v9 v15 v17 v21 (ix2 p f)
      = v21 (ix2 p f) + ((∑ jj : Fin 256, v3 (ix2 p jj) * k0_pay9 (F := Ideal) v3 v5 v7 v9 (ix2 jj f))
          + k0_pay10 (F := Ideal) v15 v17 (ix2 (⟨p.val, by omega⟩ : Fin 8192) f)) := by
  unfold k0_pay11 k0_pay7
  refine congrArg₂ (· + ·) ?_ (congrArg₂ (· + ·) ?_ ?_)
  · exact congrFun (shapeCast_self v21 _) (ix2 p f)
  · exact dotC_apply (φ₁ := .bf16) (φ₂ := .bf16) _ (k0_pay9 (F := Ideal) v3 v5 v7 v9) p f
  · exact slice2_axis0_apply 0 (k0_pay10 (F := Ideal) v15 v17) _ p f _ (Nat.zero_add _).symm

/-- The lower half's increment at (p, f): the group's triangle share and node share at row 4096 + p. -/
theorem pay13_apply (v3 v5 : Vec Ideal S4096x256 .f32) (v7 v9 : Vec Ideal S4096x128 .bf16)
    (v15 : Vec Ideal S128x8192 .f32) (v17 : Vec Ideal S8192x128 .bf16) (p : Fin 4096) (f : Fin 128) :
    k0_pay13 (F := Ideal) v3 v5 v7 v9 v15 v17 (ix2 p f)
      = (∑ jj : Fin 256, v5 (ix2 p jj) * k0_pay9 (F := Ideal) v3 v5 v7 v9 (ix2 jj f))
          + k0_pay10 (F := Ideal) v15 v17 (ix2 (⟨4096 + p.val, by omega⟩ : Fin 8192) f) := by
  unfold k0_pay13 k0_pay8
  refine congrArg₂ (· + ·) ?_ ?_
  · exact dotC_apply (φ₁ := .bf16) (φ₂ := .bf16) _ (k0_pay9 (F := Ideal) v3 v5 v7 v9) p f
  · exact slice2_axis0_apply 4096 (k0_pay10 (F := Ideal) v15 v17) _ p f _ rfl

/-- The lower half's new value: the old value plus the increment, entry by entry. -/
theorem pay1_apply (v28 v30 : FVec Ideal S4096x128 .f32) (i : S4096x128.Idx) :
    k0_pay1 (F := Ideal) v28 v30 i = v28 i + v30 i := rfl

/-- The lower half as loaded, unchanged. -/
theorem pay12_apply (v27 : Vec Ideal S4096x128 .f32) (i : S4096x128.Idx) :
    k0_pay12 (F := Ideal) v27 i = v27 i := by
  unfold k0_pay12
  exact congrFun (shapeCast_self v27 _) i

/-- The clamp at zero, entry by entry. -/
theorem pay2_apply (v36 : Vec Ideal S8192x128 .f32) (i : S8192x128.Idx) :
    k0_pay2 (F := Ideal) v36 i = max (v36 i) (Ideal.ofBits .f32 0x00000000#32) := by
  unfold k0_pay2
  exact congrArg (max · (Ideal.ofBits .f32 0x00000000#32)) (congrFun (shapeCast_self v36 _) i)

end Cert.Scone.Pay

end
-- ==== Proof.Spec.lean ====
/-
  The layer as one function of its six argument arrays, over the extended reals.

  With Y₂ = x·W₂ and Y₀ = x·W₀ (8192 × 128 each), the layer is
      out = max (B₂·(B₂ᵀ·Y₂) + x·W₁ + B₁ᵀ·(B₁·Y₀)) 0,
  entry by entry: the triangle term sums over the 4096 columns j of B₂ the product of B₂[e, j] with
  T[j, f] = ∑ₑ B₂[e, j]·Y₂[e, f]; the node term sums over the 2048 rows n of B₁ the product of B₁[n, e] with
  N[n, f] = ∑ₑ B₁[n, e]·Y₀[e, f].

  The same number is reached block by block: the 4096 columns of B₂ in 16 groups of 256, the 2048 rows of B₁ in
  16 groups of 128, each T[j, f] as the sum over the upper 4096 rows plus the sum over the lower 4096 rows, and
  the groups' contributions added one after the other onto x·W₁ (`acc`). Only the order and grouping of finite
  sums differ, and addition on the extended reals is commutative and associative, so the two agree whatever the
  entries are (`blocked_eq`, proved in the module that imports this one).
-/
import Idealize.ShloMosaic.PureOps.Ideal
import Idealize.ShloMosaic.Lib.ValueIdx

noncomputable section

namespace Cert.Scone

open Idealize.ShloMosaic Idealize.ShloMosaic.ValueIdx

/-- An n × k array of extended reals. -/
abbrev Arr (n k : Nat) := (⟨2, ![n, k]⟩ : Shape).Idx → EReal

/-- The zero the layer clamps at, as the word both programs print. -/
abbrev zeroWord : EReal := Ideal.ofBits .f32 0x00000000#32

/-- (x·W)[e, f]. -/
def xw (x : Arr 8192 128) (W : Arr 128 128) (e : Fin 8192) (f : Fin 128) : EReal :=
  ∑ k : Fin 128, x (ix2 e k) * W (ix2 k f)

/-- T[j, f] = ∑ₑ B₂[e, j]·(x·W₂)[e, f]. -/
def tri (x : Arr 8192 128) (B2 : Arr 8192 4096) (W2 : Arr 128 128) (j : Fin 4096) (f : Fin 128) : EReal :=
  ∑ e : Fin 8192, B2 (ix2 e j) * xw x W2 e f

/-- N[n, f] = ∑ₑ B₁[n, e]·(x·W₀)[e, f]. -/
def nod (x : Arr 8192 128) (B1 : Arr 2048 8192) (W0 : Arr 128 128) (n : Fin 2048) (f : Fin 128) : EReal :=
  ∑ e : Fin 8192, B1 (ix2 n e) * xw x W0 e f

/-- The layer's entry (r, f) before the clamp: triangle term, self term, node term, added in this order. -/
def pre (x : Arr 8192 128) (B1 : Arr 2048 8192) (B2 : Arr 8192 4096) (W0 W1 W2 : Arr 128 128)
    (r : Fin 8192) (f : Fin 128) : EReal :=
  (∑ j : Fin 4096, B2 (ix2 r j) * tri x B2 W2 j f) + xw x W1 r f + ∑ n : Fin 2048, B1 (ix2 n r) * nod x B1 W0 n f

/-- The layer. -/
def G (x : Arr 8192 128) (B1 : Arr 2048 8192) (B2 : Arr 8192 4096) (W0 W1 W2 : Arr 128 128) : Arr 8192 128 :=
  fun i => max (pre x B1 B2 W0 W1 W2 (i 0) (i 1)) zeroWord

/-! ## The same, block by block -/

/-- Row e of the upper half, row 4096 + e of the lower half. -/
def lo (e : Fin 4096) : Fin 8192 := ⟨e.val, by omega⟩
def hi (e : Fin 4096) : Fin 8192 := ⟨4096 + e.val, by omega⟩
/-- Column jj of group s of B₂'s columns; row ii of group s of B₁'s rows. -/
def col (s : Fin 16) (jj : Fin 256) : Fin 4096 := ⟨s.val * 256 + jj.val, by omega⟩
def row (s : Fin 16) (ii : Fin 128) : Fin 2048 := ⟨s.val * 128 + ii.val, by omega⟩

/-- T at column jj of group s, as the upper rows' sum plus the lower rows' sum. -/
def triB (x : Arr 8192 128) (B2 : Arr 8192 4096) (W2 : Arr 128 128) (s : Fin 16) (jj : Fin 256) (f : Fin 128) : EReal :=
  (∑ e : Fin 4096, B2 (ix2 (lo e) (col s jj)) * xw x W2 (lo e) f)
    + ∑ e : Fin 4096, B2 (ix2 (hi e) (col s jj)) * xw x W2 (hi e) f

/-- Group s's share of the triangle term at (r, f). -/
def stepD (x : Arr 8192 128) (B2 : Arr 8192 4096) (W2 : Arr 128 128) (s : Fin 16) (r : Fin 8192) (f : Fin 128) : EReal :=
  ∑ jj : Fin 256, B2 (ix2 r (col s jj)) * triB x B2 W2 s jj f

/-- N at row ii of group s. -/
def nodB (x : Arr 8192 128) (B1 : Arr 2048 8192) (W0 : Arr 128 128) (s : Fin 16) (ii : Fin 128) (f : Fin 128) : EReal :=
  ∑ e : Fin 8192, B1 (ix2 (row s ii) e) * xw x W0 e f

/-- Group s's share of the node term at (r, f). -/
def stepE (x : Arr 8192 128) (B1 : Arr 2048 8192) (W0 : Arr 128 128) (s : Fin 16) (r : Fin 8192) (f : Fin 128) : EReal :=
  ∑ ii : Fin 128, B1 (ix2 (row s ii) r) * nodB x B1 W0 s ii f

/-- The running total after groups 0 … n: the self term, then each group's two shares added on in turn. -/
def acc (x : Arr 8192 128) (B1 : Arr 2048 8192) (B2 : Arr 8192 4096) (W0 W1 W2 : Arr 128 128) :
    (n : Nat) → n < 16 → Fin 8192 → Fin 128 → EReal
  | 0, h => fun r f => xw x W1 r f + (stepD x B2 W2 ⟨0, h⟩ r f + stepE x B1 W0 ⟨0, h⟩ r f)
  | n + 1, h => fun r f => acc x B1 B2 W0 W1 W2 n (by omega) r f + (stepD x B2 W2 ⟨n + 1, h⟩ r f + stepE x B1 W0 ⟨n + 1, h⟩ r f)

/-- The layer, block by block: the total after the last group, clamped. -/
def K (x : Arr 8192 128) (B1 : Arr 2048 8192) (B2 : Arr 8192 4096) (W0 W1 W2 : Arr 128 128) : Arr 8192 128 :=
  fun i => max (acc x B1 B2 W0 W1 W2 15 (by omega) (i 0) (i 1)) zeroWord

end Cert.Scone

end
-- ==== Proof.ValueI.lean ====
import proofs.«159350_g1760936591461_cont_8to1_843_12_alg».proof.Proof.FrameI
import proofs.«159350_g1760936591461_cont_8to1_843_12_alg».proof.Proof.PayValue
import proofs.«159350_g1760936591461_cont_8to1_843_12_alg».proof.Proof.Spec

set_option maxRecDepth 16384

noncomputable section

namespace Cert.KernelIdeal.Region

open Cert.KernelIdeal Cert.KernelIdeal.Gen
open Idealize.ShloMosaic Idealize.ShloMosaic.TcCoe Idealize.ShloMosaic.Tactic Idealize.ShloMosaic.ValueIdx
open Idealize.SL.Sem
open Cert.Scone (lo hi)

/-! # What the body's runs leave, read back as values

Each run of the body ends with the output's buffer written by a short list of stores. The last two, at every grid
point, are a store of the lower 4096 rows and, before it, a store of the upper 4096 rows; together they cover the
buffer, so what it holds afterwards is the function that is the upper store's payload on the upper rows and the
lower store's payload on the lower rows. -/

theorem hz2 : (![0, 0] : Fin 2 → Nat) = fun _ => 0 := funext fun a => by fin_cases a <;> rfl

/-! ## The two half rectangles -/

/-- Row p of the upper half is row p of the whole. -/
theorem emb_lo (x : S4096x128.Idx) : (Rect.unit (s := S8192x128) ![0, 0] ![4096, 128] inb_S8192x128_S4096x128_0_0).emb x = ix2 (lo (x 0)) (x 1) := by
  funext a
  match a with
  | ⟨0, _⟩ => exact Fin.ext (by show 0 + 1 * (x 0).val = (x 0).val; omega)
  | ⟨1, _⟩ => exact Fin.ext (by show 0 + 1 * (x 1).val = (x 1).val; omega)

/-- Row p of the lower half is row 4096 + p of the whole. -/
theorem emb_hi (x : S4096x128.Idx) : (Rect.unit (s := S8192x128) ![4096, 0] ![4096, 128] inb_S8192x128_S4096x128_4096_0).emb x = ix2 (hi (x 0)) (x 1) := by
  funext a
  match a with
  | ⟨0, _⟩ => exact Fin.ext (by show 4096 + 1 * (x 0).val = 4096 + (x 0).val; omega)
  | ⟨1, _⟩ => exact Fin.ext (by show 0 + 1 * (x 1).val = (x 1).val; omega)

/-- A load of the upper half reads the upper rows. -/
theorem ld_lo {e : EltTy} (X : S8192x128.Idx → Elt Ideal e) :
    View.ld X (Rect.unit (s := S8192x128) ![0, 0] ![4096, 128] inb_S8192x128_S4096x128_0_0) = fun j => X (ix2 (lo (j 0)) (j 1)) :=
  funext fun j => congrArg X (emb_lo j)

/-- A load of the lower half reads the lower rows. -/
theorem ld_hi {e : EltTy} (X : S8192x128.Idx → Elt Ideal e) :
    View.ld X (Rect.unit (s := S8192x128) ![4096, 0] ![4096, 128] inb_S8192x128_S4096x128_4096_0) = fun j => X (ix2 (hi (j 0)) (j 1)) :=
  funext fun j => congrArg X (emb_hi j)

/-- Every row is a row of the upper half or a row of the lower half. -/
theorem lo_or_hi (y : S8192x128.Idx) :
    (∃ (p : Fin 4096) (f : Fin 128), y = ix2 (lo p) f) ∨ (∃ (p : Fin 4096) (f : Fin 128), y = ix2 (hi p) f) := by
  have hy0 : (y 0).val < 8192 := (y 0).isLt
  by_cases h : (y 0).val < 4096
  · exact .inl ⟨⟨(y 0).val, h⟩, y 1, (eq_ix2 y).trans (congrArg (fun q : Fin 8192 => (ix2 q (y 1) : S8192x128.Idx)) (Fin.ext rfl))⟩
  · exact .inr ⟨⟨(y 0).val - 4096, by omega⟩, y 1, (eq_ix2 y).trans (congrArg (fun q : Fin 8192 => (ix2 q (y 1) : S8192x128.Idx))
      (Fin.ext (by show (y 0).val = 4096 + ((y 0).val - 4096); omega)))⟩

section Halves
variable {e : EltTy} (wHi wLo : S4096x128.Idx → Elt Ideal e) (L : List (View.Piece (Elt Ideal) S8192x128 e))

/-- On an upper row the lower half's store, made last, changes nothing: the upper half's store shows. -/
theorem canon_halves_lo (p : Fin 4096) (f : Fin 128) :
    View.canon ((⟨(Rect.unit (s := S8192x128) ![4096, 0] ![4096, 128] inb_S8192x128_S4096x128_4096_0), wHi⟩ : View.Piece (Elt Ideal) S8192x128 e) :: ⟨(Rect.unit (s := S8192x128) ![0, 0] ![4096, 128] inb_S8192x128_S4096x128_0_0), wLo⟩ :: L) (ix2 (lo p) f) = wLo (ix2 p f) := by
  have hnot : (ix2 (lo p) f : S8192x128.Idx) ∉ (Rect.unit (s := S8192x128) ![4096, 0] ![4096, 128] inb_S8192x128_S4096x128_4096_0).set := by
    rw [Rect.mem_set_unit]
    intro hm
    have h0 : 4096 ≤ p.val := (hm 0).1
    omega
  refine (View.canon_cons_of_not_mem (⟨(Rect.unit (s := S8192x128) ![4096, 0] ![4096, 128] inb_S8192x128_S4096x128_4096_0), wHi⟩ : View.Piece (Elt Ideal) S8192x128 e) (⟨(Rect.unit (s := S8192x128) ![0, 0] ![4096, 128] inb_S8192x128_S4096x128_0_0), wLo⟩ :: L) hnot).trans ?_
  have h := View.canon_cons_emb (Rect.unit (s := S8192x128) ![0, 0] ![4096, 128] inb_S8192x128_S4096x128_0_0) wLo L (ix2 p f)
  rw [emb_lo] at h
  exact h

/-- On a lower row the lower half's store, made last, shows. -/
theorem canon_halves_hi (p : Fin 4096) (f : Fin 128) :
    View.canon ((⟨(Rect.unit (s := S8192x128) ![4096, 0] ![4096, 128] inb_S8192x128_S4096x128_4096_0), wHi⟩ : View.Piece (Elt Ideal) S8192x128 e) :: ⟨(Rect.unit (s := S8192x128) ![0, 0] ![4096, 128] inb_S8192x128_S4096x128_0_0), wLo⟩ :: L) (ix2 (hi p) f) = wHi (ix2 p f) := by
  have h := View.canon_cons_emb (Rect.unit (s := S8192x128) ![4096, 0] ![4096, 128] inb_S8192x128_S4096x128_4096_0) wHi (⟨(Rect.unit (s := S8192x128) ![0, 0] ![4096, 128] inb_S8192x128_S4096x128_0_0), wLo⟩ :: L) (ix2 p f)
  rw [emb_hi] at h
  exact h

/-- After a store of the lower half made last and a store of the upper half made before it, whatever was stored
    earlier, the buffer holds the function that agrees with the two payloads on their halves. -/
theorem canon_halves (G : S8192x128.Idx → Elt Ideal e)
    (hHi : ∀ (p : Fin 4096) (f : Fin 128), wHi (ix2 p f) = G (ix2 (hi p) f))
    (hLo : ∀ (p : Fin 4096) (f : Fin 128), wLo (ix2 p f) = G (ix2 (lo p) f)) :
    View.canon ((⟨(Rect.unit (s := S8192x128) ![4096, 0] ![4096, 128] inb_S8192x128_S4096x128_4096_0), wHi⟩ : View.Piece (Elt Ideal) S8192x128 e) :: ⟨(Rect.unit (s := S8192x128) ![0, 0] ![4096, 128] inb_S8192x128_S4096x128_0_0), wLo⟩ :: L) = G := by
  funext y
  rcases lo_or_hi y with ⟨p, f, rfl⟩ | ⟨p, f, rfl⟩
  · exact (canon_halves_lo wHi wLo L p f).trans (hLo p f)
  · exact (canon_halves_hi wHi wLo L p f).trans (hHi p f)

end Halves

/-! ## A middle point -/

/-- What a middle point leaves in the output's buffer holding xo, the scratches holding xs0 and xs1: on the upper rows
    the upper store's payload, on the lower rows the old value plus the lower increment. -/
def midVal (x4 x5 : Vec Ideal S4096x256 .f32) (x6 : Vec Ideal S128x8192 .f32) (xo : Vec Ideal S8192x128 .f32)
    (xs0 xs1 : Vec Ideal S8192x128 .bf16) : Vec Ideal S8192x128 .f32 := fun y =>
  if h : (y 0).val < 4096 then
    k0_pay11 (F := Ideal) x4 x5 (fun j => xs1 (ix2 (lo (j 0)) (j 1))) (fun j => xs1 (ix2 (hi (j 0)) (j 1))) x6 xs0 (fun j => xo (ix2 (lo (j 0)) (j 1))) (ix2 (⟨(y 0).val, h⟩ : Fin 4096) (y 1))
  else
    xo y + k0_pay13 (F := Ideal) x4 x5 (fun j => xs1 (ix2 (lo (j 0)) (j 1))) (fun j => xs1 (ix2 (hi (j 0)) (j 1))) x6 xs0
      (ix2 (⟨(y 0).val - 4096, by have : (y 0).val < 8192 := (y 0).isLt; omega⟩ : Fin 4096) (y 1))

theorem midVal_lo (x4 x5 : Vec Ideal S4096x256 .f32) (x6 : Vec Ideal S128x8192 .f32) (xo : Vec Ideal S8192x128 .f32)
    (xs0 xs1 : Vec Ideal S8192x128 .bf16) (p : Fin 4096) (f : Fin 128) :
    midVal x4 x5 x6 xo xs0 xs1 (ix2 (lo p) f)
      = k0_pay11 (F := Ideal) x4 x5 (fun j => xs1 (ix2 (lo (j 0)) (j 1))) (fun j => xs1 (ix2 (hi (j 0)) (j 1))) x6 xs0 (fun j => xo (ix2 (lo (j 0)) (j 1))) (ix2 p f) := by
  unfold midVal
  rw [dif_pos (show ((ix2 (lo p) f : S8192x128.Idx) 0).val < 4096 from p.isLt)]
  rfl

theorem midVal_hi (x4 x5 : Vec Ideal S4096x256 .f32) (x6 : Vec Ideal S128x8192 .f32) (xo : Vec Ideal S8192x128 .f32)
    (xs0 xs1 : Vec Ideal S8192x128 .bf16) (p : Fin 4096) (f : Fin 128) :
    midVal x4 x5 x6 xo xs0 xs1 (ix2 (hi p) f)
      = xo (ix2 (hi p) f) + k0_pay13 (F := Ideal) x4 x5 (fun j => xs1 (ix2 (lo (j 0)) (j 1))) (fun j => xs1 (ix2 (hi (j 0)) (j 1))) x6 xs0 (ix2 p f) := by
  unfold midVal
  rw [dif_neg (show ¬((ix2 (hi p) f : S8192x128.Idx) 0).val < 4096 from by show ¬(4096 + p.val < 4096); omega)]
  refine congrArg (fun q : Fin 4096 => xo (ix2 (hi p) f) + k0_pay13 (F := Ideal) x4 x5 (fun j => xs1 (ix2 (lo (j 0)) (j 1))) (fun j => xs1 (ix2 (hi (j 0)) (j 1))) x6 xs0 (ix2 q f)) (Fin.ext ?_)
  show 4096 + p.val - 4096 = p.val
  omega

/-- The two half stores of a point over a buffer holding xo and scratches holding xs0, xs1 — their payloads with the
    loads already read — leave midVal, whatever was stored before them. -/
theorem canon_mid (x4 x5 : Vec Ideal S4096x256 .f32) (x6 : Vec Ideal S128x8192 .f32) (xo : Vec Ideal S8192x128 .f32)
    (xs0 xs1 : Vec Ideal S8192x128 .bf16) (L : List (View.Piece (Elt Ideal) S8192x128 .f32)) :
    View.canon ((⟨(Rect.unit (s := S8192x128) ![4096, 0] ![4096, 128] inb_S8192x128_S4096x128_4096_0), k0_pay1 (F := Ideal) (k0_pay12 (F := Ideal) (fun j => xo (ix2 (hi (j 0)) (j 1)))) (k0_pay13 (F := Ideal) x4 x5 (fun j => xs1 (ix2 (lo (j 0)) (j 1))) (fun j => xs1 (ix2 (hi (j 0)) (j 1))) x6 xs0)⟩ : View.Piece (Elt Ideal) S8192x128 .f32)
      :: ⟨(Rect.unit (s := S8192x128) ![0, 0] ![4096, 128] inb_S8192x128_S4096x128_0_0), k0_pay11 (F := Ideal) x4 x5 (fun j => xs1 (ix2 (lo (j 0)) (j 1))) (fun j => xs1 (ix2 (hi (j 0)) (j 1))) x6 xs0 (fun j => xo (ix2 (lo (j 0)) (j 1)))⟩ :: L) = midVal x4 x5 x6 xo xs0 xs1 := by
  refine canon_halves _ _ L (midVal x4 x5 x6 xo xs0 xs1) (fun p f => ?_) (fun p f => ?_)
  · rw [midVal_hi, Cert.Scone.Pay.pay1_apply, Cert.Scone.Pay.pay12_apply]
  · exact (midVal_lo x4 x5 x6 xo xs0 xs1 p f).symm

theorem outMid_eq (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : ¬condFirst i) (hc1 : ¬condLast i) (x0 : Vec Ideal S8192x128 .f32) (x1 : Vec Ideal S128x128 .f32) (x2 : Vec Ideal S128x128 .f32) (x3 : Vec Ideal S128x128 .f32) (x4 : Vec Ideal S4096x256 .f32) (x5 : Vec Ideal S4096x256 .f32) (x6 : Vec Ideal S128x8192 .f32) (xo : Vec Ideal S8192x128 .f32) (xs0 xs1 : Vec Ideal S8192x128 .bf16) :
    outMid (F := Ideal) c i arg1 harg1 arg2 harg2 arg3 harg3 arg4 harg4 arg5 harg5 arg6 harg6 arg7 harg7 arg8 harg8 arg9 harg9 arg10 harg10 hc0 hc1 x0 x1 x2 x3 x4 x5 x6 xo xs0 xs1 = midVal x4 x5 x6 xo xs0 xs1 := by
  unfold outMid
  rw [View.read_writes_eq_canon _ _ _ (coverMid7 c i arg1 harg1 arg2 harg2 arg3 harg3 arg4 harg4 arg5 harg5 arg6 harg6 arg7 harg7 arg8 harg8 arg9 harg9 arg10 harg10 hc0 hc1 x0 x1 x2 x3 x4 x5 x6 xo xs0 xs1)]
  unfold runMid
  dsimp only
  sl_unfold_words
  simp only [View.readAt_eq_ld, harg5.read_unread, harg6.read_unread, harg7.read_unread, harg8.read_unread, harg9.read_unread, harg10.read_unread, View.ld_unit_zero (S := S4096x256) hz2, View.ld_unit_zero (S := S128x8192) hz2, View.ld_unit_zero (S := S8192x128) hz2]
  rw [ld_lo xs1, ld_hi xs1, ld_lo xo, ld_hi xo]
  exact canon_mid x4 x5 x6 xo xs0 xs1 []

/-! ## The last point -/

/-- A load through any rectangle of what one store of the whole buffer left reads that store's payload there. -/
theorem readCov_whole {sig' : RefSig} {κ : Kind} {sp : Space} {e : EltTy} (v : View sig' κ sp S8192x128 e)
    (w : S8192x128.Idx → Elt Ideal e) (r : Rect S8192x128) :
    v.readCov [(⟨(Rect.unit (s := S8192x128) ![0, 0] ![8192, 128] inb_S8192x128_S8192x128_0_0), w⟩ : View.Piece (Elt Ideal) S8192x128 e)] r.toLoadRect = View.ld w r := by
  rw [View.readCov_eq_canon', View.canon_unit_zero (S := S8192x128) hz2]

/-- The rectangle of the whole buffer places an index at itself. -/
theorem idx_whole (y : S8192x128.Idx) : (Rect.unit (s := S8192x128) ![0, 0] ![8192, 128] inb_S8192x128_S8192x128_0_0).toLoadRect.idx y = y := by
  funext a
  match a with
  | ⟨0, _⟩ => exact Fin.ext (by show 0 + 1 * (y 0).val = (y 0).val; omega)
  | ⟨1, _⟩ => exact Fin.ext (by show 0 + 1 * (y 1).val = (y 1).val; omega)

/-! ## The last point -/

/-- A load of the whole buffer after a list of stores reads what the stores left. -/
theorem readCov_whole_rect {sig' : RefSig} {κ : Kind} {sp : Space} {e : EltTy} (v : View sig' κ sp S8192x128 e)
    (L : List (View.Piece (Elt Ideal) S8192x128 e)) :
    v.readCov L (Rect.unit (s := S8192x128) ![0, 0] ![8192, 128] inb_S8192x128_S8192x128_0_0).toLoadRect = View.canon L := by
  rw [View.readCov_eq_canon']
  funext j
  exact congrArg (View.canon L) (idx_whole j)

/-- The last point leaves the middle point's value clamped at zero. -/
theorem outLast_eq (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : ¬condFirst i) (hc1 : condLast i) (x0 : Vec Ideal S8192x128 .f32) (x1 : Vec Ideal S128x128 .f32) (x2 : Vec Ideal S128x128 .f32) (x3 : Vec Ideal S128x128 .f32) (x4 : Vec Ideal S4096x256 .f32) (x5 : Vec Ideal S4096x256 .f32) (x6 : Vec Ideal S128x8192 .f32) (xo : Vec Ideal S8192x128 .f32) (xs0 xs1 : Vec Ideal S8192x128 .bf16) :
    outLast (F := Ideal) c i arg1 harg1 arg2 harg2 arg3 harg3 arg4 harg4 arg5 harg5 arg6 harg6 arg7 harg7 arg8 harg8 arg9 harg9 arg10 harg10 hc0 hc1 x0 x1 x2 x3 x4 x5 x6 xo xs0 xs1
      = fun y => max (midVal x4 x5 x6 xo xs0 xs1 y) (Ideal.ofBits .f32 0x00000000#32) := by
  unfold outLast
  rw [View.read_writes_eq_canon _ _ _ (coverLast7 c i arg1 harg1 arg2 harg2 arg3 harg3 arg4 harg4 arg5 harg5 arg6 harg6 arg7 harg7 arg8 harg8 arg9 harg9 arg10 harg10 hc0 hc1 x0 x1 x2 x3 x4 x5 x6 xo xs0 xs1)]
  unfold runLast
  dsimp only
  sl_unfold_words
  simp only [View.readAt_eq_ld, harg5.read_unread, harg6.read_unread, harg7.read_unread, harg8.read_unread, harg9.read_unread, harg10.read_unread, View.ld_unit_zero (S := S4096x256) hz2, View.ld_unit_zero (S := S128x8192) hz2, View.ld_unit_zero (S := S8192x128) hz2, View.ld_unit_zero (S := S128x128) hz2]
  rw [View.canon_cons_unit_zero (S := S8192x128) hz2, readCov_whole_rect]
  rw [ld_lo xs1, ld_hi xs1, ld_lo xo, ld_hi xo]
  refine (congrArg (k0_pay2 (F := Ideal)) (canon_mid x4 x5 x6 xo xs0 xs1 [])).trans ?_
  funext y
  exact Cert.Scone.Pay.pay2_apply _ y

/-! ## The first point -/

/-- A load of the lower half does not see a store of the upper half. -/
theorem readCov_lo_then_hi {sig' : RefSig} {κ : Kind} {sp : Space} {e : EltTy} (v : View sig' κ sp S8192x128 e)
    (wLo : S4096x128.Idx → Elt Ideal e) (L : List (View.Piece (Elt Ideal) S8192x128 e)) :
    v.readCov ((⟨(Rect.unit (s := S8192x128) ![0, 0] ![4096, 128] inb_S8192x128_S4096x128_0_0), wLo⟩ : View.Piece (Elt Ideal) S8192x128 e) :: L) (Rect.unit (s := S8192x128) ![4096, 0] ![4096, 128] inb_S8192x128_S4096x128_4096_0).toLoadRect = v.readCov L (Rect.unit (s := S8192x128) ![4096, 0] ![4096, 128] inb_S8192x128_S4096x128_4096_0).toLoadRect :=
  View.readCov_cons_of_disjoint v ⟨(Rect.unit (s := S8192x128) ![0, 0] ![4096, 128] inb_S8192x128_S4096x128_0_0), wLo⟩ L (Rect.unit (s := S8192x128) ![4096, 0] ![4096, 128] inb_S8192x128_S4096x128_4096_0).toLoadRect
    (Rect.unit_disjoint (inb := inb_S8192x128_S4096x128_0_0) (inb' := inb_S8192x128_S4096x128_4096_0) (0 : Fin 2) (Or.inl (by decide)))

/-- The first point stores x·W₁ into the output and x·W₀, x·W₂ into the scratches, then does what a middle point
    does over them. -/
theorem outFirst_eq (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec Ideal S8192x128 .f32) (x1 : Vec Ideal S128x128 .f32) (x2 : Vec Ideal S128x128 .f32) (x3 : Vec Ideal S128x128 .f32) (x4 : Vec Ideal S4096x256 .f32) (x5 : Vec Ideal S4096x256 .f32) (x6 : Vec Ideal S128x8192 .f32) :
    outFirst (F := Ideal) c i arg1 harg1 arg2 harg2 arg3 harg3 arg4 harg4 arg5 harg5 arg6 harg6 arg7 harg7 arg8 harg8 arg9 harg9 arg10 harg10 hc0 hc1 x0 x1 x2 x3 x4 x5 x6
      = midVal x4 x5 x6 (k0_pay6 (F := Ideal) x0 x2) (k0_pay4 (F := Ideal) x0 x1) (k0_pay5 (F := Ideal) x0 x3) := by
  unfold outFirst
  rw [View.read_writes_eq_canon _ _ _ (coverFirst7 c i arg1 harg1 arg2 harg2 arg3 harg3 arg4 harg4 arg5 harg5 arg6 harg6 arg7 harg7 arg8 harg8 arg9 harg9 arg10 harg10 hc0 hc1 x0 x1 x2 x3 x4 x5 x6)]
  unfold runFirst
  dsimp only
  sl_unfold_words
  simp only [View.readAt_eq_ld, harg1.read_unread, harg2.read_unread, harg3.read_unread, harg4.read_unread, harg5.read_unread, harg6.read_unread, harg7.read_unread, View.ld_unit_zero (S := S4096x256) hz2, View.ld_unit_zero (S := S128x8192) hz2, View.ld_unit_zero (S := S8192x128) hz2, View.ld_unit_zero (S := S128x128) hz2]
  simp only [readCov_lo_then_hi, readCov_whole, View.ld_unit_zero (S := S8192x128) hz2]
  rw [ld_lo (e := .bf16) (k0_pay5 (F := Ideal) x0 x3), ld_hi (e := .bf16) (k0_pay5 (F := Ideal) x0 x3),
    ld_lo (e := .f32) (k0_pay6 (F := Ideal) x0 x2), ld_hi (e := .f32) (k0_pay6 (F := Ideal) x0 x2)]
  exact canon_mid x4 x5 x6 (k0_pay6 (F := Ideal) x0 x2) (k0_pay4 (F := Ideal) x0 x1) (k0_pay5 (F := Ideal) x0 x3) [⟨(Rect.unit (s := S8192x128) ![0, 0] ![8192, 128] inb_S8192x128_S8192x128_0_0), k0_pay6 (F := Ideal) x0 x2⟩]

/-- The first point leaves x·W₀ in the first scratch. -/
theorem s0First_eq (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec Ideal S8192x128 .f32) (x1 : Vec Ideal S128x128 .f32) (x2 : Vec Ideal S128x128 .f32) (x3 : Vec Ideal S128x128 .f32) (x4 : Vec Ideal S4096x256 .f32) (x5 : Vec Ideal S4096x256 .f32) (x6 : Vec Ideal S128x8192 .f32) :
    s0First (F := Ideal) c i arg1 harg1 arg2 harg2 arg3 harg3 arg4 harg4 arg5 harg5 arg6 harg6 arg7 harg7 arg8 harg8 arg9 harg9 arg10 harg10 hc0 hc1 x0 x1 x2 x3 x4 x5 x6 = k0_pay4 (F := Ideal) x0 x1 := by
  unfold s0First
  rw [View.read_writes_eq_canon _ _ _ (coverFirstS0 c i arg1 harg1 arg2 harg2 arg3 harg3 arg4 harg4 arg5 harg5 arg6 harg6 arg7 harg7 arg8 harg8 arg9 harg9 arg10 harg10 hc0 hc1 x0 x1 x2 x3 x4 x5 x6)]
  unfold runFirst
  dsimp only
  sl_unfold_words
  simp only [View.readAt_eq_ld, harg1.read_unread, harg2.read_unread, harg3.read_unread, harg4.read_unread, harg5.read_unread, harg6.read_unread, harg7.read_unread, View.ld_unit_zero (S := S4096x256) hz2, View.ld_unit_zero (S := S128x8192) hz2, View.ld_unit_zero (S := S8192x128) hz2, View.ld_unit_zero (S := S128x128) hz2]
  exact View.canon_unit_zero (S := S8192x128) hz2 _ _

/-- The first point leaves x·W₂ in the second scratch. -/
theorem s1First_eq (c : Dev nD) (i : grid0.Coords) (arg1 : Memref sig .tc .vmem S8192x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S4096x256 .f32) (harg5 : arg5.IsWhole) (arg6 : Memref sig .tc .vmem S4096x256 .f32) (harg6 : arg6.IsWhole) (arg7 : Memref sig .tc .vmem S128x8192 .f32) (harg7 : arg7.IsWhole) (arg8 : Memref sig .tc .vmem S8192x128 .f32) (harg8 : arg8.IsWhole) (arg9 : Memref sig .tc .vmem S8192x128 .bf16) (harg9 : arg9.IsWhole) (arg10 : Memref sig .tc .vmem S8192x128 .bf16) (harg10 : arg10.IsWhole) (hc0 : condFirst i) (hc1 : ¬condLast i) (x0 : Vec Ideal S8192x128 .f32) (x1 : Vec Ideal S128x128 .f32) (x2 : Vec Ideal S128x128 .f32) (x3 : Vec Ideal S128x128 .f32) (x4 : Vec Ideal S4096x256 .f32) (x5 : Vec Ideal S4096x256 .f32) (x6 : Vec Ideal S128x8192 .f32) :
    s1First (F := Ideal) c i arg1 harg1 arg2 harg2 arg3 harg3 arg4 harg4 arg5 harg5 arg6 harg6 arg7 harg7 arg8 harg8 arg9 harg9 arg10 harg10 hc0 hc1 x0 x1 x2 x3 x4 x5 x6 = k0_pay5 (F := Ideal) x0 x3 := by
  unfold s1First
  rw [View.read_writes_eq_canon _ _ _ (coverFirstS1 c i arg1 harg1 arg2 harg2 arg3 harg3 arg4 harg4 arg5 harg5 arg6 harg6 arg7 harg7 arg8 harg8 arg9 harg9 arg10 harg10 hc0 hc1 x0 x1 x2 x3 x4 x5 x6)]
  unfold runFirst
  dsimp only
  sl_unfold_words
  simp only [View.readAt_eq_ld, harg1.read_unread, harg2.read_unread, harg3.read_unread, harg4.read_unread, harg5.read_unread, harg6.read_unread, harg7.read_unread, View.ld_unit_zero (S := S4096x256) hz2, View.ld_unit_zero (S := S128x8192) hz2, View.ld_unit_zero (S := S8192x128) hz2, View.ld_unit_zero (S := S128x128) hz2]
  exact View.canon_unit_zero (S := S8192x128) hz2 _ _

end Cert.KernelIdeal.Region

end
-- ==== Proof.BlocksI.lean ====
/-
  Each input window's block at a grid point, read at an index of the block, is the window's array read where the
  block sits: on every axis the array's coordinate is (block index) × (block size) + (coordinate inside the block).
  The four whole-array windows read their arrays as they are at every point; the two windows over B₂ read its upper
  and its lower 4096 rows at the point's 256 columns; the window over B₁ reads the point's 128 rows.
-/
import proofs.«159350_g1760936591461_cont_8to1_843_12_alg».proof.Proof.RegionI
import proofs.«159350_g1760936591461_cont_8to1_843_12_alg».proof.Proof.Spec

set_option maxRecDepth 16384

noncomputable section

namespace Cert.KernelIdeal.Region

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The block indices, decided over the sixteen points -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
/-- The upper rows of B₂, the point's group of columns. -/
theorem idx4 : ∀ t : Fin cfg0.N, win0_4.index t (0 : Fin 2) = 0 ∧ win0_4.index t (1 : Fin 2) = t.val :=
  (by decide +kernel : ∀ t : Fin grid0.N, _)
/-- The lower rows of B₂, the point's group of columns. -/
theorem idx5 : ∀ t : Fin cfg0.N, win0_5.index t (0 : Fin 2) = 1 ∧ win0_5.index t (1 : Fin 2) = t.val :=
  (by decide +kernel : ∀ t : Fin grid0.N, _)
/-- The point's group of rows of B₁. -/
theorem idx6 : ∀ t : Fin cfg0.N, win0_6.index t (0 : Fin 2) = t.val ∧ win0_6.index t (1 : Fin 2) = 0 :=
  (by decide +kernel : ∀ t : Fin grid0.N, _)

/-- The grid point as one of the sixteen groups. -/
abbrev grp (t : Fin cfg0.N) : Fin 16 := ⟨t.val, lt_of_lt_of_eq t.isLt N_0⟩

/-! ## The whole-array windows -/

theorem iblk0_apply (c : Dev nD) (t : Fin cfg0.N) (y : S8192x128.Idx) : iblk m c 0 t y = V m c main_arg0 y := by
  obtain ⟨e0, e1⟩ := idx0 t
  unfold iblk
  rw [View.read_apply]
  show V m c main_arg0 (((cfg0.win 0).blk t).view.emb y) = V m c main_arg0 y
  congr 1
  funext d; apply Fin.ext
  match d with
  | ⟨0, _⟩ => show win0_0.index t (0 : Fin 2) * 8192 + 1 * (y 0).val = (y 0).val; omega
  | ⟨1, _⟩ => show win0_0.index t (1 : Fin 2) * 128 + 1 * (y 1).val = (y 1).val; omega

theorem iblk1_apply (c : Dev nD) (t : Fin cfg0.N) (y : S128x128.Idx) : iblk m c 1 t y = V m c main_arg3 y := by
  obtain ⟨e0, e1⟩ := idx1 t
  unfold iblk
  rw [View.read_apply]
  show V m c main_arg3 (((cfg0.win 1).blk t).view.emb y) = V m c main_arg3 y
  congr 1
  funext d; apply Fin.ext
  match d with
  | ⟨0, _⟩ => show win0_1.index t (0 : Fin 2) * 128 + 1 * (y 0).val = (y 0).val; omega
  | ⟨1, _⟩ => show win0_1.index t (1 : Fin 2) * 128 + 1 * (y 1).val = (y 1).val; omega

theorem iblk2_apply (c : Dev nD) (t : Fin cfg0.N) (y : S128x128.Idx) : iblk m c 2 t y = V m c main_arg4 y := by
  obtain ⟨e0, e1⟩ := idx2 t
  unfold iblk
  rw [View.read_apply]
  show V m c main_arg4 (((cfg0.win 2).blk t).view.emb y) = V m c main_arg4 y
  congr 1
  funext d; apply Fin.ext
  match d with
  | ⟨0, _⟩ => show win0_2.index t (0 : Fin 2) * 128 + 1 * (y 0).val = (y 0).val; omega
  | ⟨1, _⟩ => show win0_2.index t (1 : Fin 2) * 128 + 1 * (y 1).val = (y 1).val; omega

theorem iblk3_apply (c : Dev nD) (t : Fin cfg0.N) (y : S128x128.Idx) : iblk m c 3 t y = V m c main_arg5 y := by
  obtain ⟨e0, e1⟩ := idx3 t
  unfold iblk
  rw [View.read_apply]
  show V m c main_arg5 (((cfg0.win 3).blk t).view.emb y) = V m c main_arg5 y
  congr 1
  funext d; apply Fin.ext
  match d with
  | ⟨0, _⟩ => show win0_3.index t (0 : Fin 2) * 128 + 1 * (y 0).val = (y 0).val; omega
  | ⟨1, _⟩ => show win0_3.index t (1 : Fin 2) * 128 + 1 * (y 1).val = (y 1).val; omega

/-! ## The windows over B₂ and B₁ -/

/-- Entry (a, b) of the upper block at point t is B₂ at row a, column b of group t. -/
theorem iblk4_apply (c : Dev nD) (t : Fin cfg0.N) (a : Fin 4096) (b : Fin 256) :
    iblk m c 4 t (ix2 a b) = V m c main_arg2 (ix2 (Cert.Scone.lo a) (Cert.Scone.col (grp t) b)) := by
  obtain ⟨e0, e1⟩ := idx4 t
  unfold iblk
  rw [View.read_apply]
  show V m c main_arg2 (((cfg0.win 4).blk t).view.emb (ix2 a b)) = V m c main_arg2 _
  congr 1
  funext d; apply Fin.ext
  match d with
  | ⟨0, _⟩ => show win0_4.index t (0 : Fin 2) * 4096 + 1 * a.val = a.val; omega
  | ⟨1, _⟩ => show win0_4.index t (1 : Fin 2) * 256 + 1 * b.val = t.val * 256 + b.val; omega

/-- Entry (a, b) of the lower block at point t is B₂ at row 4096 + a, column b of group t. -/
theorem iblk5_apply (c : Dev nD) (t : Fin cfg0.N) (a : Fin 4096) (b : Fin 256) :
    iblk m c 5 t (ix2 a b) = V m c main_arg2 (ix2 (Cert.Scone.hi a) (Cert.Scone.col (grp t) b)) := by
  obtain ⟨e0, e1⟩ := idx5 t
  unfold iblk
  rw [View.read_apply]
  show V m c main_arg2 (((cfg0.win 5).blk t).view.emb (ix2 a b)) = V m c main_arg2 _
  congr 1
  funext d; apply Fin.ext
  match d with
  | ⟨0, _⟩ => show win0_5.index t (0 : Fin 2) * 4096 + 1 * a.val = 4096 + a.val; omega
  | ⟨1, _⟩ => show win0_5.index t (1 : Fin 2) * 256 + 1 * b.val = t.val * 256 + b.val; omega

/-- Entry (a, b) of the B₁ block at point t is B₁ at row a of group t, column b. -/
theorem iblk6_apply (c : Dev nD) (t : Fin cfg0.N) (a : Fin 128) (b : Fin 8192) :
    iblk m c 6 t (ix2 a b) = V m c main_arg1 (ix2 (Cert.Scone.row (grp t) a) b) := by
  obtain ⟨e0, e1⟩ := idx6 t
  unfold iblk
  rw [View.read_apply]
  show V m c main_arg1 (((cfg0.win 6).blk t).view.emb (ix2 a b)) = V m c main_arg1 _
  congr 1
  funext d; apply Fin.ext
  match d with
  | ⟨0, _⟩ => show win0_6.index t (0 : Fin 2) * 128 + 1 * a.val = t.val * 128 + a.val; omega
  | ⟨1, _⟩ => show win0_6.index t (1 : Fin 2) * 8192 + 1 * b.val = b.val; omega

end Cert.KernelIdeal.Region

end
-- ==== Proof.StepI.lean ====
/-
  One grid point's arithmetic, in the layer's vocabulary. When the point's blocks are the columns of group s of B₂
  (upper and lower 4096 rows) and the rows of group s of B₁, and the two scratches hold x·W₀ and x·W₂, the vector the
  body adds onto the upper half of the running total is, at row p and column f, group s's share of the triangle term
  plus its share of the node term at row p — and the same for the lower half at row 4096 + p.
-/
import proofs.«159350_g1760936591461_cont_8to1_843_12_alg».proof.Proof.PayValue
import proofs.«159350_g1760936591461_cont_8to1_843_12_alg».proof.Proof.Spec

noncomputable section

namespace Cert.Scone.Step

open Cert.KernelIdeal Cert.KernelIdeal.Gen Idealize.ShloMosaic Idealize.ShloMosaic.ValueIdx Cert.Scone Cert.Scone.Pay

variable (X : Arr 8192 128) (B1 : Arr 2048 8192) (B2 : Arr 8192 4096) (W0 W2 : Arr 128 128) (s : Fin 16)
variable (x4 x5 : Vec Ideal S4096x256 .f32) (x6 : Vec Ideal S128x8192 .f32) (xs0 xs1 : Vec Ideal S8192x128 .bf16)
variable (h4 : ∀ (a : Fin 4096) (b : Fin 256), x4 (ix2 a b) = B2 (ix2 (lo a) (col s b)))
variable (h5 : ∀ (a : Fin 4096) (b : Fin 256), x5 (ix2 a b) = B2 (ix2 (hi a) (col s b)))
variable (h6 : ∀ (a : Fin 128) (b : Fin 8192), x6 (ix2 a b) = B1 (ix2 (row s a) b))
variable (hs0 : ∀ (e : Fin 8192) (f : Fin 128), xs0 (ix2 e f) = xw X W0 e f)
variable (hs1 : ∀ (e : Fin 8192) (f : Fin 128), xs1 (ix2 e f) = xw X W2 e f)

/-- The upper and lower halves of the scratch holding x·W₂, as the body loads them. -/
abbrev up (v : Vec Ideal S8192x128 .bf16) : Vec Ideal S4096x128 .bf16 := fun j => v (ix2 (lo (j 0)) (j 1))
abbrev dn (v : Vec Ideal S8192x128 .bf16) : Vec Ideal S4096x128 .bf16 := fun j => v (ix2 (hi (j 0)) (j 1))

include h4 h5 hs1 in
/-- The point's T block is T at the group's columns. -/
theorem tri_block (jj : Fin 256) (f : Fin 128) :
    k0_pay9 (F := Ideal) x4 x5 (up xs1) (dn xs1) (ix2 jj f) = triB X B2 W2 s jj f := by
  rw [pay9_apply]
  unfold triB
  congr 1
  · refine Finset.sum_congr rfl fun e _ => ?_
    rw [h4]
    show _ * xs1 (ix2 (lo e) f) = _
    rw [hs1]
  · refine Finset.sum_congr rfl fun e _ => ?_
    rw [h5]
    show _ * xs1 (ix2 (hi e) f) = _
    rw [hs1]

include h6 hs0 in
/-- The point's node product at row r is group s's share of the node term. -/
theorem node_block (r : Fin 8192) (f : Fin 128) :
    k0_pay10 (F := Ideal) x6 xs0 (ix2 r f) = stepE X B1 W0 s r f := by
  rw [pay10_apply]
  unfold stepE nodB
  refine Finset.sum_congr rfl fun ii _ => ?_
  rw [h6]
  congr 1
  refine Finset.sum_congr rfl fun e _ => ?_
  rw [h6, hs0]

include h4 h5 h6 hs0 hs1 in
/-- What the body adds onto the upper half. -/
theorem step_lo (v21 : Vec Ideal S4096x128 .f32) (p : Fin 4096) (f : Fin 128) :
    k0_pay11 (F := Ideal) x4 x5 (up xs1) (dn xs1) x6 xs0 v21 (ix2 p f)
      = v21 (ix2 p f) + (stepD X B2 W2 s (lo p) f + stepE X B1 W0 s (lo p) f) := by
  rw [pay11_apply]
  congr 2
  · unfold stepD
    refine Finset.sum_congr rfl fun jj _ => ?_
    rw [h4, tri_block X B2 W2 s x4 x5 xs1 h4 h5 hs1]
  · exact node_block X B1 W0 s x6 xs0 h6 hs0 (lo p) f

include h4 h5 h6 hs0 hs1 in
/-- What the body adds onto the lower half. -/
theorem step_hi (p : Fin 4096) (f : Fin 128) :
    k0_pay13 (F := Ideal) x4 x5 (up xs1) (dn xs1) x6 xs0 (ix2 p f)
      = stepD X B2 W2 s (hi p) f + stepE X B1 W0 s (hi p) f := by
  rw [pay13_apply]
  congr 1
  · unfold stepD
    refine Finset.sum_congr rfl fun jj _ => ?_
    rw [h5, tri_block X B2 W2 s x4 x5 xs1 h4 h5 hs1]
  · exact node_block X B1 W0 s x6 xs0 h6 hs0 (hi p) f

end Cert.Scone.Step

end
-- ==== Proof.AccI.lean ====
/-
  The running total is the layer's. With the six argument arrays read as x, B₁, B₂, W₀, W₁, W₂: the scratches hold
  x·W₀ and x·W₂ from the first point on; after the first point the output's buffer holds x·W₁ plus group 0's two
  shares; each later point adds its group's two shares onto what the point before left; the last point also clamps
  at zero. By induction on the point the buffer after point n holds the spec's running total after groups 0 … n,
  and after the last point the layer, block by block.
-/
import proofs.«159350_g1760936591461_cont_8to1_843_12_alg».proof.Proof.ValueI
import proofs.«159350_g1760936591461_cont_8to1_843_12_alg».proof.Proof.BlocksI
import proofs.«159350_g1760936591461_cont_8to1_843_12_alg».proof.Proof.StepI

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL.Sem
open Cert.Scone Cert.Scone.Pay Cert.Scone.Step

variable (m : (ℓ : Loc nD τ sig) → Buf (Elt Ideal) ℓ)

/-- The argument arrays as the region finds them, in the layer's vocabulary. -/
abbrev aX (c : Dev nD) : Arr 8192 128 := V m c main_arg0
abbrev aB1 (c : Dev nD) : Arr 2048 8192 := V m c main_arg1
abbrev aB2 (c : Dev nD) : Arr 8192 4096 := V m c main_arg2
abbrev aW0 (c : Dev nD) : Arr 128 128 := V m c main_arg3
abbrev aW1 (c : Dev nD) : Arr 128 128 := V m c main_arg4
abbrev aW2 (c : Dev nD) : Arr 128 128 := V m c main_arg5

/-- Every row is in the upper or in the lower half. -/
theorem upper_or_lower (r : Fin 8192) : (∃ p : Fin 4096, r = lo p) ∨ ∃ p : Fin 4096, r = hi p := by
  by_cases h : r.val < 4096
  · exact .inl ⟨⟨r.val, h⟩, Fin.ext rfl⟩
  · exact .inr ⟨⟨r.val - 4096, by have := r.isLt; omega⟩, Fin.ext (by show r.val = 4096 + (r.val - 4096); omega)⟩

/-- The scratches, from the first point on, hold x·W₀ and x·W₂. -/
theorem S0_apply (c : Dev nD) (e : Fin 8192) (f : Fin 128) : S0 m c (ix2 e f) = xw (aX m c) (aW0 m c) e f := by
  unfold S0
  rw [s0First_eq, pay4_apply]
  unfold xw
  refine Finset.sum_congr rfl fun k _ => ?_
  rw [iblk0_apply, iblk1_apply]
theorem S1_apply (c : Dev nD) (e : Fin 8192) (f : Fin 128) : S1 m c (ix2 e f) = xw (aX m c) (aW2 m c) e f := by
  unfold S1
  rw [s1First_eq, pay5_apply]
  unfold xw
  refine Finset.sum_congr rfl fun k _ => ?_
  rw [iblk0_apply, iblk3_apply]

/-- One point: over a buffer holding xo, with the point's blocks and the scratches, the body leaves xo plus the
    group's two shares, row by row. -/
theorem mid_apply (c : Dev nD) (t : Fin cfg0.N) (xo : Vec Ideal S8192x128 .f32) (r : Fin 8192) (f : Fin 128) :
    midVal (iblk m c 4 t) (iblk m c 5 t) (iblk m c 6 t) xo (S0 m c) (S1 m c) (ix2 r f)
      = xo (ix2 r f) + (stepD (aX m c) (aB2 m c) (aW2 m c) (grp t) r f + stepE (aX m c) (aB1 m c) (aW0 m c) (grp t) r f) := by
  rcases upper_or_lower r with ⟨p, rfl⟩ | ⟨p, rfl⟩
  · rw [midVal_lo]
    exact step_lo (aX m c) (aB1 m c) (aB2 m c) (aW0 m c) (aW2 m c) (grp t) (iblk m c 4 t) (iblk m c 5 t) (iblk m c 6 t) (S0 m c) (S1 m c)
      (iblk4_apply m c t) (iblk5_apply m c t) (iblk6_apply m c t) (S0_apply m c) (S1_apply m c) _ p f
  · rw [midVal_hi]
    exact congrArg (xo (ix2 (hi p) f) + ·) (step_hi (aX m c) (aB1 m c) (aB2 m c) (aW0 m c) (aW2 m c) (grp t) (iblk m c 4 t) (iblk m c 5 t) (iblk m c 6 t) (S0 m c) (S1 m c)
      (iblk4_apply m c t) (iblk5_apply m c t) (iblk6_apply m c t) (S0_apply m c) (S1_apply m c) p f)

/-- THE INDUCTION: before the last point, the buffer after point n holds the running total after groups 0 … n. -/
theorem outsAt_acc (c : Dev nD) : ∀ (n : ℕ) (hn : n < cfg0.N) (h15 : n < 15) (r : Fin 8192) (f : Fin 128),
    outsAt m c n hn (ix2 r f) = acc (aX m c) (aB1 m c) (aB2 m c) (aW0 m c) (aW1 m c) (aW2 m c) n (by omega) r f
  | 0, hn, _, r, f => by
    show outFirst (F := Ideal) c _ _ _ _ _ _ _ _ _ _ _ _ _ _ _ _ _ _ _ _ _ _ _ _ _ _ _ _ _ _ (ix2 r f) = _
    rw [outFirst_eq]
    have hS0 : k0_pay4 (F := Ideal) (iblk m c 0 ⟨0, hn⟩) (iblk m c 1 ⟨0, hn⟩) = S0 m c := by
      unfold S0; rw [s0First_eq]
    have hS1 : k0_pay5 (F := Ideal) (iblk m c 0 ⟨0, hn⟩) (iblk m c 3 ⟨0, hn⟩) = S1 m c := by
      unfold S1; rw [s1First_eq]
    rw [hS0, hS1, mid_apply m c ⟨0, hn⟩, pay6_apply]
    show _ = xw _ _ r f + _
    congr 1
    unfold xw
    refine Finset.sum_congr rfl fun k _ => ?_
    rw [iblk0_apply, iblk2_apply]
  | n + 1, hn, h15, r, f => by
    have h0 : ¬(n + 1) % 16 = 0 := by omega
    have h1 : ¬(n + 1) % 16 = 15 := by omega
    rw [outsAt_mid m c n hn h0 h1, outMid_eq, mid_apply m c ⟨n + 1, hn⟩, outsAt_acc c n (Nat.lt_of_succ_lt hn) (by omega) r f]
    rfl

/-- After the last point: the layer, block by block. -/
theorem outsAt_final (c : Dev nD) (h : 15 < cfg0.N) :
    outsAt m c 15 h = K (aX m c) (aB1 m c) (aB2 m c) (aW0 m c) (aW1 m c) (aW2 m c) := by
  funext i
  obtain ⟨r, f, rfl⟩ : ∃ (r : Fin 8192) (f : Fin 128), i = ix2 r f := ⟨i 0, i 1, eq_ix2 i⟩
  have h0 : ¬(14 + 1) % 16 = 0 := by omega
  have h1 : (14 + 1) % 16 = 15 := by omega
  rw [show outsAt m c 15 h = outsAt m c (14 + 1) h from rfl, outsAt_last m c 14 h h0 h1, outLast_eq]
  show max (midVal _ _ _ _ _ _ (ix2 r f)) _ = max (acc _ _ _ _ _ _ 15 _ r f) _
  rw [mid_apply m c ⟨14 + 1, h⟩, outsAt_acc m c 14 (Nat.lt_of_succ_lt h) (by omega) r f]
  rfl

end Cert.KernelIdeal.Region

end
-- ==== Proof.SpecLaw.lean ====
/-
  The block-by-block layer equals the layer.

  Addition on the extended reals is commutative and associative, so a finite sum may be split into the sums over
  two halves of its index set, a double sum over groups and positions within a group is the single sum over all
  positions, and a running total is the first term plus the sum of the increments. Nothing else is used: no
  distributivity, no cancellation, no finiteness of the entries.
-/
import proofs.«159350_g1760936591461_cont_8to1_843_12_alg».proof.Proof.Spec
import Mathlib.Algebra.BigOperators.Fin
import Mathlib.Algebra.BigOperators.Group.Finset.Sigma

noncomputable section

namespace Cert.Scone

open Idealize.ShloMosaic Idealize.ShloMosaic.ValueIdx

/-! ## Re-indexing finite sums -/

/-- A sum over the 8192 rows is the sum over the upper 4096 plus the sum over the lower 4096. -/
theorem sum_lo_hi (H : Fin 8192 → EReal) :
    ∑ e : Fin 8192, H e = (∑ e : Fin 4096, H (lo e)) + ∑ e : Fin 4096, H (hi e) := by
  exact Fin.sum_univ_add (M := EReal) (a := 4096) (b := 4096) H

/-- The 4096 columns, as 16 groups of 256. -/
def colEquiv : Fin 16 × Fin 256 ≃ Fin 4096 where
  toFun p := col p.1 p.2
  invFun j := (⟨j.val / 256, by omega⟩, ⟨j.val % 256, by omega⟩)
  left_inv := by
    rintro ⟨s, jj⟩
    apply Prod.ext
    · apply Fin.ext
      show (s.val * 256 + jj.val) / 256 = s.val
      omega
    · apply Fin.ext
      show (s.val * 256 + jj.val) % 256 = jj.val
      omega
  right_inv := by
    intro j
    apply Fin.ext
    show j.val / 256 * 256 + j.val % 256 = j.val
    omega

/-- The 2048 rows, as 16 groups of 128. -/
def rowEquiv : Fin 16 × Fin 128 ≃ Fin 2048 where
  toFun p := row p.1 p.2
  invFun n := (⟨n.val / 128, by omega⟩, ⟨n.val % 128, by omega⟩)
  left_inv := by
    rintro ⟨s, ii⟩
    apply Prod.ext
    · apply Fin.ext
      show (s.val * 128 + ii.val) / 128 = s.val
      omega
    · apply Fin.ext
      show (s.val * 128 + ii.val) % 128 = ii.val
      omega
  right_inv := by
    intro n
    apply Fin.ext
    show n.val / 128 * 128 + n.val % 128 = n.val
    omega

/-- Group by group, then column by column within the group, is every column once. -/
theorem sum_col (F : Fin 4096 → EReal) :
    ∑ s : Fin 16, ∑ jj : Fin 256, F (col s jj) = ∑ j : Fin 4096, F j := by
  rw [← Fintype.sum_prod_type' (f := fun (s : Fin 16) (jj : Fin 256) => F (col s jj))]
  exact Equiv.sum_comp colEquiv F

/-- Group by group, then row by row within the group, is every row once. -/
theorem sum_row (F : Fin 2048 → EReal) :
    ∑ s : Fin 16, ∑ ii : Fin 128, F (row s ii) = ∑ n : Fin 2048, F n := by
  rw [← Fintype.sum_prod_type' (f := fun (s : Fin 16) (ii : Fin 128) => F (row s ii))]
  exact Equiv.sum_comp rowEquiv F

/-! ## The blocks' pieces are the layer's pieces -/

theorem triB_eq (x : Arr 8192 128) (B2 : Arr 8192 4096) (W2 : Arr 128 128) (s : Fin 16) (jj : Fin 256)
    (f : Fin 128) : triB x B2 W2 s jj f = tri x B2 W2 (col s jj) f := by
  unfold triB tri
  exact (sum_lo_hi (fun e => B2 (ix2 e (col s jj)) * xw x W2 e f)).symm

theorem nodB_eq (x : Arr 8192 128) (B1 : Arr 2048 8192) (W0 : Arr 128 128) (s : Fin 16) (ii : Fin 128)
    (f : Fin 128) : nodB x B1 W0 s ii f = nod x B1 W0 (row s ii) f := rfl

/-- The 16 groups' shares of the triangle term add up to the triangle term. -/
theorem sum_stepD (x : Arr 8192 128) (B2 : Arr 8192 4096) (W2 : Arr 128 128) (r : Fin 8192) (f : Fin 128) :
    ∑ s : Fin 16, stepD x B2 W2 s r f = ∑ j : Fin 4096, B2 (ix2 r j) * tri x B2 W2 j f := by
  rw [← sum_col (fun j => B2 (ix2 r j) * tri x B2 W2 j f)]
  refine Finset.sum_congr rfl fun s _ => ?_
  unfold stepD
  refine Finset.sum_congr rfl fun jj _ => ?_
  rw [triB_eq]

/-- The 16 groups' shares of the node term add up to the node term. -/
theorem sum_stepE (x : Arr 8192 128) (B1 : Arr 2048 8192) (W0 : Arr 128 128) (r : Fin 8192) (f : Fin 128) :
    ∑ s : Fin 16, stepE x B1 W0 s r f = ∑ n : Fin 2048, B1 (ix2 n r) * nod x B1 W0 n f := by
  rw [← sum_row (fun n => B1 (ix2 n r) * nod x B1 W0 n f)]
  refine Finset.sum_congr rfl fun s _ => ?_
  unfold stepE
  refine Finset.sum_congr rfl fun ii _ => ?_
  rw [nodB_eq]

/-! ## The running total -/

/-- Group s's two shares at (r, f), as a function of the bare group number (zero past the last group). -/
def share (x : Arr 8192 128) (B1 : Arr 2048 8192) (B2 : Arr 8192 4096) (W0 W2 : Arr 128 128)
    (r : Fin 8192) (f : Fin 128) (s : Nat) : EReal :=
  if h : s < 16 then stepD x B2 W2 ⟨s, h⟩ r f + stepE x B1 W0 ⟨s, h⟩ r f else 0

/-- The running total after groups 0 … n is the self term plus the shares of groups 0 … n. -/
theorem acc_eq_sum (x : Arr 8192 128) (B1 : Arr 2048 8192) (B2 : Arr 8192 4096) (W0 W1 W2 : Arr 128 128)
    (r : Fin 8192) (f : Fin 128) :
    ∀ (n : Nat) (h : n < 16), acc x B1 B2 W0 W1 W2 n h r f
      = xw x W1 r f + ∑ s ∈ Finset.range (n + 1), share x B1 B2 W0 W2 r f s
  | 0, h => by
    rw [Finset.sum_range_one]
    show xw x W1 r f + (stepD x B2 W2 ⟨0, h⟩ r f + stepE x B1 W0 ⟨0, h⟩ r f) = _
    unfold share
    rw [dif_pos h]
  | n + 1, h => by
    rw [Finset.sum_range_succ, ← add_assoc, ← acc_eq_sum x B1 B2 W0 W1 W2 r f n (by omega)]
    show acc x B1 B2 W0 W1 W2 n _ r f + (stepD x B2 W2 ⟨n + 1, h⟩ r f + stepE x B1 W0 ⟨n + 1, h⟩ r f) = _
    unfold share
    rw [dif_pos h]

/-- The total after the last group is the layer's entry before the clamp. -/
theorem acc_last (x : Arr 8192 128) (B1 : Arr 2048 8192) (B2 : Arr 8192 4096) (W0 W1 W2 : Arr 128 128)
    (r : Fin 8192) (f : Fin 128) (h : 15 < 16) :
    acc x B1 B2 W0 W1 W2 15 h r f = pre x B1 B2 W0 W1 W2 r f := by
  rw [acc_eq_sum x B1 B2 W0 W1 W2 r f 15 h]
  have hs : ∑ s ∈ Finset.range (15 + 1), share x B1 B2 W0 W2 r f s
      = ∑ s : Fin 16, (stepD x B2 W2 s r f + stepE x B1 W0 s r f) := by
    rw [← Fin.sum_univ_eq_sum_range (fun s => share x B1 B2 W0 W2 r f s) (15 + 1)]
    refine Finset.sum_congr rfl fun s _ => ?_
    unfold share
    rw [dif_pos s.isLt]
  rw [hs, Finset.sum_add_distrib, sum_stepD, sum_stepE]
  unfold pre
  rw [← add_assoc, add_comm (xw x W1 r f)]

/-- The block-by-block layer is the layer. -/
theorem K_eq_G (x : Arr 8192 128) (B1 : Arr 2048 8192) (B2 : Arr 8192 4096) (W0 W1 W2 : Arr 128 128) :
    K x B1 B2 W0 W1 W2 = G x B1 B2 W0 W1 W2 := by
  funext i
  exact congrArg (fun v => max v zeroWord) (acc_last x B1 B2 W0 W1 W2 (i 0) (i 1) (by omega))

end Cert.Scone

end
-- ==== Proof.RefValue.lean ====
/-
  The reference's result, read one operation at a time, is the layer.

  Each product of the reference is a sum over its contracted axis, each transposition reads its operand at the
  swapped index, the two additions and the clamp act entry by entry, and the clamp's second operand is the zero
  word at every entry. Reading the operations from the last one back to the arguments gives, at entry (r, f),
      max (∑ⱼ B₂[r, j]·T[j, f] + (x·W₁)[r, f] + ∑ₙ B₁[n, r]·N[n, f]) 0,
  with T and N as in the layer's definition: the same sums in the same order, so no law of addition is needed.
-/
import proofs.«159350_g1760936591461_cont_8to1_843_12_alg».proof.Proof.Gen.ReferenceIdeal.Read
import proofs.«159350_g1760936591461_cont_8to1_843_12_alg».proof.Proof.Spec
import proofs.«159350_g1760936591461_cont_8to1_843_12_alg».proof.Proof.SpecLaw
import Mathlib.Util.TermReduce

noncomputable section

namespace Cert.Scone.Ref

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The generated index functions, at an index given by its coordinates -/

theorem lidx_v1 (e : Fin 8192) (f k : Fin 128) : lidx_main_v1 (ix2 e f) k = ix2 e k :=
  funext fun a => by match a with | ⟨0, _⟩ => rfl | ⟨1, _⟩ => rfl
theorem ridx_v1 (e : Fin 8192) (f k : Fin 128) : ridx_main_v1 (ix2 e f) k = ix2 k f :=
  funext fun a => by match a with | ⟨0, _⟩ => rfl | ⟨1, _⟩ => rfl
theorem lidx_v4 (e : Fin 8192) (f k : Fin 128) : lidx_main_v4 (ix2 e f) k = ix2 e k :=
  funext fun a => by match a with | ⟨0, _⟩ => rfl | ⟨1, _⟩ => rfl
theorem ridx_v4 (e : Fin 8192) (f k : Fin 128) : ridx_main_v4 (ix2 e f) k = ix2 k f :=
  funext fun a => by match a with | ⟨0, _⟩ => rfl | ⟨1, _⟩ => rfl
theorem lidx_v6 (e : Fin 8192) (f k : Fin 128) : lidx_main_v6 (ix2 e f) k = ix2 e k :=
  funext fun a => by match a with | ⟨0, _⟩ => rfl | ⟨1, _⟩ => rfl
theorem ridx_v6 (e : Fin 8192) (f k : Fin 128) : ridx_main_v6 (ix2 e f) k = ix2 k f :=
  funext fun a => by match a with | ⟨0, _⟩ => rfl | ⟨1, _⟩ => rfl
theorem lidx_v2 (j : Fin 4096) (f : Fin 128) (e : Fin 8192) : lidx_main_v2 (ix2 j f) e = ix2 j e :=
  funext fun a => by match a with | ⟨0, _⟩ => rfl | ⟨1, _⟩ => rfl
theorem ridx_v2 (j : Fin 4096) (f : Fin 128) (e : Fin 8192) : ridx_main_v2 (ix2 j f) e = ix2 e f :=
  funext fun a => by match a with | ⟨0, _⟩ => rfl | ⟨1, _⟩ => rfl
theorem lidx_v3 (r : Fin 8192) (f : Fin 128) (j : Fin 4096) : lidx_main_v3 (ix2 r f) j = ix2 r j :=
  funext fun a => by match a with | ⟨0, _⟩ => rfl | ⟨1, _⟩ => rfl
theorem ridx_v3 (r : Fin 8192) (f : Fin 128) (j : Fin 4096) : ridx_main_v3 (ix2 r f) j = ix2 j f :=
  funext fun a => by match a with | ⟨0, _⟩ => rfl | ⟨1, _⟩ => rfl
theorem lidx_v7 (n : Fin 2048) (f : Fin 128) (e : Fin 8192) : lidx_main_v7 (ix2 n f) e = ix2 n e :=
  funext fun a => by match a with | ⟨0, _⟩ => rfl | ⟨1, _⟩ => rfl
theorem ridx_v7 (n : Fin 2048) (f : Fin 128) (e : Fin 8192) : ridx_main_v7 (ix2 n f) e = ix2 e f :=
  funext fun a => by match a with | ⟨0, _⟩ => rfl | ⟨1, _⟩ => rfl
theorem lidx_v8 (r : Fin 8192) (f : Fin 128) (n : Fin 2048) : lidx_main_v8 (ix2 r f) n = ix2 r n :=
  funext fun a => by match a with | ⟨0, _⟩ => rfl | ⟨1, _⟩ => rfl
theorem ridx_v8 (r : Fin 8192) (f : Fin 128) (n : Fin 2048) : ridx_main_v8 (ix2 r f) n = ix2 n f :=
  funext fun a => by match a with | ⟨0, _⟩ => rfl | ⟨1, _⟩ => rfl
/-- The transposed B₂ at (j, e) is B₂ at (e, j). -/
theorem idx_v0 (j : Fin 4096) (e : Fin 8192) : idx_main_v0 (ix2 j e) = ix2 e j :=
  funext fun a => by match a with | ⟨0, _⟩ => rfl | ⟨1, _⟩ => rfl
/-- The transposed B₁ at (r, n) is B₁ at (n, r). -/
theorem idx_v5 (r : Fin 8192) (n : Fin 2048) : idx_main_v5 (ix2 r n) = ix2 n r :=
  funext fun a => by match a with | ⟨0, _⟩ => rfl | ⟨1, _⟩ => rfl

/-! ## The operations, one at a time -/

/-- x·W₂. -/
theorem v1_ix (x0 : (⟨S8192x128, .f32⟩ : BufTy).Contents (Elt Ideal)) (x5 : (⟨S128x128, .f32⟩ : BufTy).Contents (Elt Ideal))
    (e : Fin 8192) (f : Fin 128) : val_main_v1 (F := Ideal) x0 x5 (ix2 e f) = xw x0 x5 e f := by
  rw [val_main_v1_apply]
  unfold xw
  refine Finset.sum_congr rfl fun k _ => ?_
  rw [lidx_v1, ridx_v1]

/-- x·W₁. -/
theorem v4_ix (x0 : (⟨S8192x128, .f32⟩ : BufTy).Contents (Elt Ideal)) (x4 : (⟨S128x128, .f32⟩ : BufTy).Contents (Elt Ideal))
    (e : Fin 8192) (f : Fin 128) : val_main_v4 (F := Ideal) x0 x4 (ix2 e f) = xw x0 x4 e f := by
  rw [val_main_v4_apply]
  unfold xw
  refine Finset.sum_congr rfl fun k _ => ?_
  rw [lidx_v4, ridx_v4]

/-- x·W₀. -/
theorem v6_ix (x0 : (⟨S8192x128, .f32⟩ : BufTy).Contents (Elt Ideal)) (x3 : (⟨S128x128, .f32⟩ : BufTy).Contents (Elt Ideal))
    (e : Fin 8192) (f : Fin 128) : val_main_v6 (F := Ideal) x0 x3 (ix2 e f) = xw x0 x3 e f := by
  rw [val_main_v6_apply]
  unfold xw
  refine Finset.sum_congr rfl fun k _ => ?_
  rw [lidx_v6, ridx_v6]

/-- B₂ᵀ·(x·W₂) is T. -/
theorem v2_ix (x0 : (⟨S8192x128, .f32⟩ : BufTy).Contents (Elt Ideal)) (x2 : (⟨S8192x4096, .f32⟩ : BufTy).Contents (Elt Ideal))
    (x5 : (⟨S128x128, .f32⟩ : BufTy).Contents (Elt Ideal)) (j : Fin 4096) (f : Fin 128) :
    val_main_v2 (F := Ideal) x0 x2 x5 (ix2 j f) = tri x0 x2 x5 j f := by
  rw [val_main_v2_apply]
  unfold tri
  refine Finset.sum_congr rfl fun e _ => ?_
  rw [lidx_v2, ridx_v2, val_main_v0_apply, idx_v0, v1_ix]

/-- B₂·T is the triangle term. -/
theorem v3_ix (x0 : (⟨S8192x128, .f32⟩ : BufTy).Contents (Elt Ideal)) (x2 : (⟨S8192x4096, .f32⟩ : BufTy).Contents (Elt Ideal))
    (x5 : (⟨S128x128, .f32⟩ : BufTy).Contents (Elt Ideal)) (r : Fin 8192) (f : Fin 128) :
    val_main_v3 (F := Ideal) x0 x2 x5 (ix2 r f) = ∑ j : Fin 4096, x2 (ix2 r j) * tri x0 x2 x5 j f := by
  rw [val_main_v3_apply]
  refine Finset.sum_congr rfl fun j _ => ?_
  rw [lidx_v3, ridx_v3, v2_ix]

/-- B₁·(x·W₀) is N. -/
theorem v7_ix (x0 : (⟨S8192x128, .f32⟩ : BufTy).Contents (Elt Ideal)) (x1 : (⟨S2048x8192, .f32⟩ : BufTy).Contents (Elt Ideal))
    (x3 : (⟨S128x128, .f32⟩ : BufTy).Contents (Elt Ideal)) (n : Fin 2048) (f : Fin 128) :
    val_main_v7 (F := Ideal) x0 x1 x3 (ix2 n f) = nod x0 x1 x3 n f := by
  rw [val_main_v7_apply]
  unfold nod
  refine Finset.sum_congr rfl fun e _ => ?_
  rw [lidx_v7, ridx_v7, v6_ix]

/-- B₁ᵀ·N is the node term. -/
theorem v8_ix (x0 : (⟨S8192x128, .f32⟩ : BufTy).Contents (Elt Ideal)) (x1 : (⟨S2048x8192, .f32⟩ : BufTy).Contents (Elt Ideal))
    (x3 : (⟨S128x128, .f32⟩ : BufTy).Contents (Elt Ideal)) (r : Fin 8192) (f : Fin 128) :
    val_main_v8 (F := Ideal) x0 x1 x3 (ix2 r f) = ∑ n : Fin 2048, x1 (ix2 n r) * nod x0 x1 x3 n f := by
  rw [val_main_v8_apply]
  refine Finset.sum_congr rfl fun n _ => ?_
  rw [lidx_v8, ridx_v8, val_main_v5_apply, idx_v5, v7_ix]

/-! ## The last stage is the layer -/

theorem val_eq_G (x0 : (⟨S8192x128, .f32⟩ : BufTy).Contents (Elt Ideal)) (x1 : (⟨S2048x8192, .f32⟩ : BufTy).Contents (Elt Ideal))
    (x2 : (⟨S8192x4096, .f32⟩ : BufTy).Contents (Elt Ideal)) (x3 x4 x5 : (⟨S128x128, .f32⟩ : BufTy).Contents (Elt Ideal)) :
    val_main_v11 (F := Ideal) x0 x1 x2 x3 x4 x5 = Cert.Scone.G x0 x1 x2 x3 x4 x5 := by
  funext i
  obtain ⟨r, f, rfl⟩ : ∃ (r : Fin 8192) (f : Fin 128), i = ix2 r f := ⟨i 0, i 1, eq_ix2 i⟩
  rw [val_main_v11_apply, val_main_v10_apply, val_main_v9_apply, v3_ix, v4_ix, v8_ix, val_main_call0_v0_apply,
    val_main_call0_cst_apply]
  rfl

/-- The reference's result as the run of its operations leaves it: one composed term of the six argument arrays,
    whatever the float values are. -/
abbrev runTerm {F : FTy → Type} [FloatOps F] (x0 : (⟨S8192x128, .f32⟩ : BufTy).Contents (Elt F)) (x1 : (⟨S2048x8192, .f32⟩ : BufTy).Contents (Elt F))
    (x2 : (⟨S8192x4096, .f32⟩ : BufTy).Contents (Elt F)) (x3 x4 x5 : (⟨S128x128, .f32⟩ : BufTy).Contents (Elt F)) :
    (⟨S8192x128, .f32⟩ : BufTy).Contents (Elt F) :=
  maximumf (addf (addf (Host.dotGeneral dot_S8192x4096_S4096x128_S8192x128_1_0_0_1_n_n none (x2) (Host.dotGeneral dot_S4096x8192_S8192x128_S4096x128_1_0_0_1_n_n none (transpose S4096x8192 [1, 0] (x2) transposes_S8192x4096_S4096x8192_1_0) (Host.dotGeneral dot_S8192x128_S128x128_S8192x128_1_0_0_1_n_n none (x0) (x5)))) (Host.dotGeneral dot_S8192x128_S128x128_S8192x128_1_0_0_1_n_n none (x0) (x4))) (Host.dotGeneral dot_S8192x2048_S2048x128_S8192x128_1_0_0_1_n_n none (transpose S8192x2048 [1, 0] (x1) transposes_S2048x8192_S8192x2048_1_0) (Host.dotGeneral dot_S2048x8192_S8192x128_S2048x128_1_0_0_1_n_n none (x1) (Host.dotGeneral dot_S8192x128_S128x128_S8192x128_1_0_0_1_n_n none (x0) (x3))))) (broadcastInDim S8192x128 ![] bcast_S_S8192x128 (constant S_ .f32 0x00000000#32))

/-- The reference's result is the layer. (The left side is `runTerm` at the extended reals, written out.) -/
theorem ref_eq_G (x0 : (⟨S8192x128, .f32⟩ : BufTy).Contents (Elt Ideal)) (x1 : (⟨S2048x8192, .f32⟩ : BufTy).Contents (Elt Ideal))
    (x2 : (⟨S8192x4096, .f32⟩ : BufTy).Contents (Elt Ideal)) (x3 x4 x5 : (⟨S128x128, .f32⟩ : BufTy).Contents (Elt Ideal)) :
    (delta% (runTerm (F := Ideal) x0 x1 x2 x3 x4 x5)) = Cert.Scone.G x0 x1 x2 x3 x4 x5 :=
  (val_main_v11_eq (F := Ideal) x0 x1 x2 x3 x4 x5).trans (val_eq_G x0 x1 x2 x3 x4 x5)

/-- The reference's result is the layer computed block by block. -/
theorem ref_eq_K (x0 : (⟨S8192x128, .f32⟩ : BufTy).Contents (Elt Ideal)) (x1 : (⟨S2048x8192, .f32⟩ : BufTy).Contents (Elt Ideal))
    (x2 : (⟨S8192x4096, .f32⟩ : BufTy).Contents (Elt Ideal)) (x3 x4 x5 : (⟨S128x128, .f32⟩ : BufTy).Contents (Elt Ideal)) :
    (delta% (runTerm (F := Ideal) x0 x1 x2 x3 x4 x5)) = Cert.Scone.K x0 x1 x2 x3 x4 x5 :=
  (ref_eq_G x0 x1 x2 x3 x4 x5).trans (Cert.Scone.K_eq_G x0 x1 x2 x3 x4 x5).symm

end Cert.Scone.Ref

end
-- ==== Proof.lean ====
/-
  The simplicial-complex layer  out = max (B₂·(B₂ᵀ·(x·W₂)) + x·W₁ + B₁ᵀ·(B₁·(x·W₀))) 0  over x : 8192 × 128,
  B₁ : 2048 × 8192, B₂ : 8192 × 4096 and three 128 × 128 weights: the kernel against the plain reference.

  The kernel walks sixteen grid points. At the first it stores x·W₀ and x·W₂ into two scratches and x·W₁ into the
  output's buffer; at every point it takes 256 columns of B₂ (as the upper and the lower 4096 rows, two windows on one
  array) and 128 rows of B₁, forms T = B₂ᵀ·(x·W₂) on those columns as the upper rows' sum plus the lower rows' sum and
  N = B₁·(x·W₀) on those rows, and adds B₂·T and B₁ᵀ·N for the group onto the upper and the lower half of the
  output's buffer; at the last point it clamps the total at zero, and the buffer is written back once, after it.

  Frames. The run of the region is proved once for any float instance (the body's run at the first point, at a
  middle point and at the last point; the output's buffer after each point by recursion on the point; the scratches
  carried by the region's invariant; the 8192 × 4096 array held by its two windows at the two halves of the full
  share), and read at the word-level instance for the printed kernel and at the extended reals for its idealization.
  The reference is a straight line of host operations, and its frame is its run with the result dropped.

  Values. Over the extended reals a change of float format is the identity and every matrix product is a finite sum
  of products. By induction on the point the output's buffer after point n holds x·W₁ plus the shares of groups
  0 … n; after the last point, clamped, that is the layer summed block by block. The reference computes the layer
  with each sum taken whole. The two differ only in the order and grouping of finite sums — the 4096 columns as 16
  groups of 256, the 2048 rows as 16 groups of 128, the 8192 rows as two halves, the three terms added in another
  order — and addition of extended reals is commutative and associative, so they agree for every input; the
  precondition is not used.

  The idealization rewrote nothing, so its conjunct is trivial.
-/
import proofs.«159350_g1760936591461_cont_8to1_843_12_alg».proof.Defs
import proofs.«159350_g1760936591461_cont_8to1_843_12_alg».proof.Proof.Gen.Kernel
import proofs.«159350_g1760936591461_cont_8to1_843_12_alg».proof.Proof.Gen.KernelIdeal
import proofs.«159350_g1760936591461_cont_8to1_843_12_alg».proof.Proof.Gen.ReferenceIdeal
import proofs.«159350_g1760936591461_cont_8to1_843_12_alg».proof.Proof.Gen.Pre_finite_inputs
import proofs.«159350_g1760936591461_cont_8to1_843_12_alg».proof.Proof.Gen.ReferenceIdeal.Run
import proofs.«159350_g1760936591461_cont_8to1_843_12_alg».proof.Proof.LaunchK
import proofs.«159350_g1760936591461_cont_8to1_843_12_alg».proof.Proof.ValueRunI
import proofs.«159350_g1760936591461_cont_8to1_843_12_alg».proof.Proof.AccI
import proofs.«159350_g1760936591461_cont_8to1_843_12_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Region.frame m ρ

theorem frame_ki : Cert.frame_KernelIdeal := fun m ρ _ => Cert.KernelIdeal.Region.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the layer: the kernel's result array at the running total after the last point, which is
    the layer block by block; the reference's at its composed term, which is the layer; and the two forms agree. -/
theorem algebraic : Cert.algebraic_KernelIdeal_ReferenceIdeal := by
  intro m ρ m' ρ' _ hagree
  refine ⟨fun c => Cert.KernelIdeal.Region.outsAt m c 15 (by rw [Cert.KernelIdeal.Region.N16]; decide),
    Cert.KernelIdeal.Region.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.Scone.Ref.ref_eq_K _ _ _ _ _ _).trans (Cert.KernelIdeal.Region.outsAt_final m c _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
